-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S128 .f32) (main_arg6 : FVec F S128x32 .f32) (main_arg7 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg6
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x768 .f32) (main_arg1 : IVec S2x1600000 32) (main_arg2 : FVec F S768x128 .f32) (main_arg3 : FVec F S128 .f32) (main_arg4 : FVec F S128x128 .f32) (main_arg5 : FVec F S128 .f32) (main_arg6 : FVec F S128x32 .f32) (main_arg7 : FVec F S32 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x128 .f32 := Host.absf main_arg2
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1x128 : Shape := ⟨2, ![1, 128]⟩
abbrev S1x32 : Shape := ⟨2, ![1, 32]⟩
abbrev S50000x128 : Shape := ⟨2, ![50000, 128]⟩
abbrev S2000x768 : Shape := ⟨2, ![2000, 768]⟩
abbrev S2000x1 : Shape := ⟨2, ![2000, 1]⟩
abbrev S2000x128 : Shape := ⟨2, ![2000, 128]⟩
abbrev S1650000x128 : Shape := ⟨2, ![1650000, 128]⟩
abbrev S50000x32 : Shape := ⟨2, ![50000, 32]⟩
abbrev S2000x32 : Shape := ⟨2, ![2000, 32]⟩

abbrev nBuf : Space → Nat
  | .hbm => 67
  | .vmem => 24
  | .smem => 0
  | _ => 0

abbrev bufTy : (tb : Table) → Fin (tcTables nBuf tb) → BufTy
  | .hbm, ⟨0, _⟩ => ⟨S50000x768, .f32⟩
  | .hbm, ⟨1, _⟩ => ⟨S2x1600000, .i32⟩
  | .hbm, ⟨2, _⟩ => ⟨S768x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S50000, .i32⟩
  | .hbm, ⟨13, _⟩ => ⟨S1650000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S1x128, .f32⟩
  | .hbm, ⟨34, _⟩ => ⟨S1x128, .f32⟩
  | .hbm, ⟨35, _⟩ => ⟨S1x32, .f32⟩
  | .hbm, ⟨36, _⟩ => ⟨S50000x128, .bf16⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000x128, .bf16⟩
  | .hbm, ⟨46, _⟩ => ⟨S1650000x128, .f32⟩
  | .hbm, ⟨47, _⟩ => ⟨S_, .f32⟩
  | .hbm, ⟨48, _⟩ => ⟨S50000x128, .f32⟩
  | .hbm, ⟨49, _⟩ => ⟨S1650000x1, .i32⟩
  | .hbm, ⟨50, _⟩ => ⟨S50000x128, .f32⟩
  | .hbm, ⟨51, _⟩ => ⟨S50000x128, .bf16⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x128, .bf16⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S50000x32, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S128x32, .f32⟩
  | .local _ .vmem, ⟨21, _⟩ => ⟨S1x32, .f32⟩
  | .local _ .vmem, ⟨22, _⟩ => ⟨S2000x32, .f32⟩
  | .local _ .vmem, ⟨23, _⟩ => ⟨S2000x32, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  shapeCasts_S128_S1x128 : S128.ShapeCasts S1x128
  shapeCasts_S32_S1x32 : S32.ShapeCasts S1x32
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S50000_S1650000x1_S1650000_n_0_0_1_wf : ScatterDims.WF S50000 S1650000x1 S1650000 [] [0] [0] 1
  dot_S2000x768_S768x128_S2000x128_1_0_0_1_n_n_wf : DotDims.WF S2000x768 S768x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S50000x32.size a
  hwx2_5 : ∀ i : grid2.Coords, EltTy.bits .f32 = 32 ∨ (Rect.block (s := S50000x32) S2000x32.size (cc2_transform_5 i) (hinb2_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x32 : Shape := ⟨2, ![50000, 32]⟩
abbrev S1x32 : Shape := ⟨2, ![1, 32]⟩

abbrev nBuf : Space → Nat
  | .hbm => 101
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x1600000, .i32⟩
  | .hbm, ⟨2, _⟩ => ⟨S768x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x128, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x128, .f32⟩
  | .hbm, ⟨61, _⟩ => ⟨S1650000x1, .f32⟩
  | .hbm, ⟨62, _⟩ => ⟨S1650000x128, .f32⟩
  | .hbm, ⟨63, _⟩ => ⟨S1650000x128, .f32⟩
  | .hbm, ⟨64, _⟩ => ⟨S_, .f32⟩
  | .hbm, ⟨65, _⟩ => ⟨S50000x128, .f32⟩
  | .hbm, ⟨66, _⟩ => ⟨S1650000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S1650000, .i32⟩
  | .hbm, ⟨77, _⟩ => ⟨S1650000, .i1⟩
  | .hbm, ⟨78, _⟩ => ⟨S_, .i32⟩
  | .hbm, ⟨79, _⟩ => ⟨S1650000, .i32⟩
  | .hbm, ⟨80, _⟩ => ⟨S1650000, .i32⟩
  | .hbm, ⟨81, _⟩ => ⟨S1650000, .i32⟩
  | .hbm, ⟨82, _⟩ => ⟨S1650000x1, .i32⟩
  | .hbm, ⟨83, _⟩ => ⟨S1650000x128, .f32⟩
  | .hbm, ⟨84, _⟩ => ⟨S1650000x1, .f32⟩
  | .hbm, ⟨85, _⟩ => ⟨S1650000x128, .f32⟩
  | .hbm, ⟨86, _⟩ => ⟨S1650000x128, .f32⟩
  | .hbm, ⟨87, _⟩ => ⟨S_, .f32⟩
  | .hbm, ⟨88, _⟩ => ⟨S50000x128, .f32⟩
  | .hbm, ⟨89, _⟩ => ⟨S1650000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x32, .f32⟩
  | .hbm, ⟨98, _⟩ => ⟨S1x32, .f32⟩
  | .hbm, ⟨99, _⟩ => ⟨S50000x32, .f32⟩
  | .hbm, ⟨100, _⟩ => ⟨S50000x32, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x768_S768x128_S50000x128_1_0_0_1_n_n_wf : DotDims.WF S50000x768 S768x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KRun.lean ====
/-
  The idealized kernel program's run with its result named.

  The program is three kernel regions among stretches of host operations. Along the run the buffer contents at each
  boundary are a fold from the launch memory; at the return every buffer the program does not scope holds the last
  boundary's contents. So the result array ends at the last fold read at the result's buffer, and the arguments end
  as launched.
-/
import proofs.«113278_j87557203296773_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and each argument array is as launched. -/
theorem run_named : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KRun

end
-- ==== Proof.KGlue.lean ====
/-
  The host stretches between the kernel regions, read as equations between the buffer contents at the boundaries.

  Between two regions the program gathers the rows of the previous region's result named by the source indices (a
  negative index wrapped once by the row count) and accumulates them at the destination indices: `aggOf`. Every
  other buffer a later region reads passes through the stretches and the regions unchanged.
-/
import proofs.«113278_j87557203296773_2_alg».proof.Proof.Gen.KernelIdeal.Frame

set_option maxRecDepth 16384

noncomputable section

namespace Cert.KGlue

open Cert.KernelIdeal Cert.KernelIdeal.Gen
open Idealize.ShloMosaic Idealize.ShloMosaic.TcCoe Idealize.SL.Sem Idealize.ShloMosaic.StableHlo

variable {F : FTy → Type} [FloatOps F]

/-- Gather the rows of `h` at the source indices (a negative index wrapped by the row count), then accumulate row
    `e` of the gathered array into row `dst e` of a zero array. -/
def aggOf (src dst : IVec S1650000 32) (h : FVec F S50000x128 .bf16) : FVec F S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst)
    (extf .f32 (Host.gather gather_S50000x128_S1650000x1_S1650000x128_1_0_n_n_0_1_1128 h
      (broadcastInDim S1650000x1 ![0] bcast_S1650000_S1650000x1_0
        (select (cmpi .slt src (broadcastInDim S1650000 ![] bcast_S_S1650000 (constantI S_ 32 0#32)))
          (addi src (broadcastInDim S1650000 ![] bcast_S_S1650000 (constantI S_ 32 50000#32))) src))) bitsLt_bf16_f32)

variable (m : (ℓ : Loc nD τ sig) → Buf (Elt F) ℓ) (ρ : Dev nD → PrngReg) (c : Dev nD)

/-- The stretch before the third region leaves the aggregate of the second region's result. -/
theorem agg2 : W7 m ρ c (Proc.devRef .tc main_v44)
    = aggOf (F := F) (W6 m ρ c (Proc.devRef .tc main_v5)) (W6 m ρ c (Proc.devRef .tc main_v6)) (W6 m ρ c (Proc.devRef .tc main_v33)) := by
  show StableHlo.after hostOps2 (W6 m ρ c) (Proc.devRef .tc main_v44) = _
  after_results
  rfl

/-- The stretch before the second region leaves the aggregate of the first region's result. -/
theorem agg1 : W5 m ρ c (Proc.devRef .tc main_v32)
    = aggOf (F := F) (W4 m ρ c (Proc.devRef .tc main_v5)) (W4 m ρ c (Proc.devRef .tc main_v6)) (W4 m ρ c (Proc.devRef .tc main_v21)) := by
  show StableHlo.after hostOps1 (W4 m ρ c) (Proc.devRef .tc main_v32) = _
  after_results
  rfl

/-! ## What the regions and the stretches leave alone

A region writes only its output array (its input arrays are read back as entered), a stretch only its own results; so
the index arrays, the scale column, the bias rows and the weight arguments reach every region as first computed. -/

/-- The source and destination index arrays, as the first stretch leaves them. -/
abbrev src : IVec S1650000 32 := W1 m ρ c (Proc.devRef .tc main_v5)
abbrev dst : IVec S1650000 32 := W1 m ρ c (Proc.devRef .tc main_v6)
/-- The scale column and the three bias rows, as the reshapes leave them. -/
abbrev dcol : FVec F S50000x1 .f32 := W3 m ρ c (Proc.devRef .tc main_v17)
abbrev b1row : FVec F S1x128 .f32 := W3 m ρ c (Proc.devRef .tc main_v18)
abbrev b2row : FVec F S1x128 .f32 := W3 m ρ c (Proc.devRef .tc main_v19)
abbrev bfrow : FVec F S1x32 .f32 := W3 m ρ c (Proc.devRef .tc main_v20)

-- region 0's entry
theorem e3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem e3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem e3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem e3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results
theorem e3_v5 : W3 m ρ c (Proc.devRef .tc main_v5) = src m ρ c := by
  have h : ∀ X : Valuation τ sig (Elt F), StableHlo.after hostOps0_2 (StableHlo.after hostOps0_1 X) (Proc.devRef .tc main_v5)
      = X (Proc.devRef .tc main_v5) := by intro X; after_results
  exact h (W1 m ρ c)
theorem e3_v6 : W3 m ρ c (Proc.devRef .tc main_v6) = dst m ρ c := by
  have h : ∀ X : Valuation τ sig (Elt F), StableHlo.after hostOps0_2 (StableHlo.after hostOps0_1 X) (Proc.devRef .tc main_v6)
      = X (Proc.devRef .tc main_v6) := by intro X; after_results
  exact h (W1 m ρ c)

-- region 0's exit
theorem x4_v21 : W4 m ρ c (Proc.devRef .tc main_v21) = (dat0 (V3 m ρ) c).arrAt 3 cfg0.N := W4_arr m ρ c 3
theorem x4_v17 : W4 m ρ c (Proc.devRef .tc main_v17) = dcol m ρ c :=
  (W4_arr m ρ c 2).trans (((dat0 (V3 m ρ) c).arrAt_in 2 rfl _).trans (A_eq0 (V3 m ρ) c 2))
theorem x4_v5 : W4 m ρ c (Proc.devRef .tc main_v5) = src m ρ c := (W4_of_ne m ρ c main_v5 (by decide)).trans (e3_v5 m ρ c)
theorem x4_v6 : W4 m ρ c (Proc.devRef .tc main_v6) = dst m ρ c := (W4_of_ne m ρ c main_v6 (by decide)).trans (e3_v6 m ρ c)
theorem x4_v18 : W4 m ρ c (Proc.devRef .tc main_v18) = b1row m ρ c := W4_of_ne m ρ c main_v18 (by decide)
theorem x4_v19 : W4 m ρ c (Proc.devRef .tc main_v19) = b2row m ρ c := W4_of_ne m ρ c main_v19 (by decide)
theorem x4_v20 : W4 m ρ c (Proc.devRef .tc main_v20) = bfrow m ρ c := W4_of_ne m ρ c main_v20 (by decide)
theorem x4_arg4 : W4 m ρ c (Proc.devRef .tc main_arg4) = m ((c : Thread nD τ).loc main_arg4) :=
  (W4_of_ne m ρ c main_arg4 (by decide)).trans (e3_arg4 m ρ c)
theorem x4_arg6 : W4 m ρ c (Proc.devRef .tc main_arg6) = m ((c : Thread nD τ).loc main_arg6) :=
  (W4_of_ne m ρ c main_arg6 (by decide)).trans (e3_arg6 m ρ c)

-- region 1's entry
theorem e5_v5 : W5 m ρ c (Proc.devRef .tc main_v5) = src m ρ c := by
  refine Eq.trans ?_ (x4_v5 m ρ c)
  show StableHlo.after hostOps1 (W4 m ρ c) (Proc.devRef .tc main_v5) = _
  after_results
theorem e5_v6 : W5 m ρ c (Proc.devRef .tc main_v6) = dst m ρ c := by
  refine Eq.trans ?_ (x4_v6 m ρ c)
  show StableHlo.after hostOps1 (W4 m ρ c) (Proc.devRef .tc main_v6) = _
  after_results
theorem e5_v17 : W5 m ρ c (Proc.devRef .tc main_v17) = dcol m ρ c := by
  refine Eq.trans ?_ (x4_v17 m ρ c)
  show StableHlo.after hostOps1 (W4 m ρ c) (Proc.devRef .tc main_v17) = _
  after_results
theorem e5_v18 : W5 m ρ c (Proc.devRef .tc main_v18) = b1row m ρ c := by
  refine Eq.trans ?_ (x4_v18 m ρ c)
  show StableHlo.after hostOps1 (W4 m ρ c) (Proc.devRef .tc main_v18) = _
  after_results
theorem e5_v19 : W5 m ρ c (Proc.devRef .tc main_v19) = b2row m ρ c := by
  refine Eq.trans ?_ (x4_v19 m ρ c)
  show StableHlo.after hostOps1 (W4 m ρ c) (Proc.devRef .tc main_v19) = _
  after_results
theorem e5_v20 : W5 m ρ c (Proc.devRef .tc main_v20) = bfrow m ρ c := by
  refine Eq.trans ?_ (x4_v20 m ρ c)
  show StableHlo.after hostOps1 (W4 m ρ c) (Proc.devRef .tc main_v20) = _
  after_results
theorem e5_arg4 : W5 m ρ c (Proc.devRef .tc main_arg4) = m ((c : Thread nD τ).loc main_arg4) := by
  refine Eq.trans ?_ (x4_arg4 m ρ c)
  show StableHlo.after hostOps1 (W4 m ρ c) (Proc.devRef .tc main_arg4) = _
  after_results
theorem e5_arg6 : W5 m ρ c (Proc.devRef .tc main_arg6) = m ((c : Thread nD τ).loc main_arg6) := by
  refine Eq.trans ?_ (x4_arg6 m ρ c)
  show StableHlo.after hostOps1 (W4 m ρ c) (Proc.devRef .tc main_arg6) = _
  after_results
theorem e5_v32 : W5 m ρ c (Proc.devRef .tc main_v32)
    = aggOf (F := F) (src m ρ c) (dst m ρ c) ((dat0 (V3 m ρ) c).arrAt 3 cfg0.N) := by
  rw [agg1, x4_v5, x4_v6, x4_v21]

-- region 1's exit
theorem x6_v33 : W6 m ρ c (Proc.devRef .tc main_v33) = (dat1 (V5 m ρ) c).arrAt 4 cfg1.N := W6_arr m ρ c 4
theorem x6_v17 : W6 m ρ c (Proc.devRef .tc main_v17) = dcol m ρ c :=
  ((W6_arr m ρ c 1).trans (((dat1 (V5 m ρ) c).arrAt_in 1 rfl _).trans (A_eq1 (V5 m ρ) c 1))).trans (e5_v17 m ρ c)
theorem x6_v5 : W6 m ρ c (Proc.devRef .tc main_v5) = src m ρ c := (W6_of_ne m ρ c main_v5 (by decide)).trans (e5_v5 m ρ c)
theorem x6_v6 : W6 m ρ c (Proc.devRef .tc main_v6) = dst m ρ c := (W6_of_ne m ρ c main_v6 (by decide)).trans (e5_v6 m ρ c)
theorem x6_v19 : W6 m ρ c (Proc.devRef .tc main_v19) = b2row m ρ c := (W6_of_ne m ρ c main_v19 (by decide)).trans (e5_v19 m ρ c)
theorem x6_v20 : W6 m ρ c (Proc.devRef .tc main_v20) = bfrow m ρ c := (W6_of_ne m ρ c main_v20 (by decide)).trans (e5_v20 m ρ c)
theorem x6_arg6 : W6 m ρ c (Proc.devRef .tc main_arg6) = m ((c : Thread nD τ).loc main_arg6) :=
  (W6_of_ne m ρ c main_arg6 (by decide)).trans (e5_arg6 m ρ c)

-- region 2's entry
theorem e7_v17 : W7 m ρ c (Proc.devRef .tc main_v17) = dcol m ρ c := by
  refine Eq.trans ?_ (x6_v17 m ρ c)
  show StableHlo.after hostOps2 (W6 m ρ c) (Proc.devRef .tc main_v17) = _
  after_results
theorem e7_v19 : W7 m ρ c (Proc.devRef .tc main_v19) = b2row m ρ c := by
  refine Eq.trans ?_ (x6_v19 m ρ c)
  show StableHlo.after hostOps2 (W6 m ρ c) (Proc.devRef .tc main_v19) = _
  after_results
theorem e7_v20 : W7 m ρ c (Proc.devRef .tc main_v20) = bfrow m ρ c := by
  refine Eq.trans ?_ (x6_v20 m ρ c)
  show StableHlo.after hostOps2 (W6 m ρ c) (Proc.devRef .tc main_v20) = _
  after_results
theorem e7_arg6 : W7 m ρ c (Proc.devRef .tc main_arg6) = m ((c : Thread nD τ).loc main_arg6) := by
  refine Eq.trans ?_ (x6_arg6 m ρ c)
  show StableHlo.after hostOps2 (W6 m ρ c) (Proc.devRef .tc main_arg6) = _
  after_results
theorem e7_v44 : W7 m ρ c (Proc.devRef .tc main_v44)
    = aggOf (F := F) (src m ρ c) (dst m ρ c) ((dat1 (V5 m ρ) c).arrAt 4 cfg1.N) := by
  rw [agg2, x6_v5, x6_v6, x6_v33]

-- region 2's exit
theorem x8_v45 : W8 m ρ c (Proc.devRef .tc main_v45) = (dat2 (V7 m ρ) c).arrAt 5 cfg2.N := W8_arr m ρ c 5

end Cert.KGlue

end
-- ==== Proof.Spec.lean ====
/-
  The mathematics both programs compute, stated once over extended-real arrays with literal extents.

  A two-layer graph convolution with a dense classifier. With `d` the per-node scale (one column), each layer forms
  `relu (d r · a r k + b k)` from an aggregated array `a`, multiplies it by a weight matrix, and (for the two hidden
  layers) rescales row `r` by `d r` again; the classifier adds its bias instead.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals with literal extents. -/
abbrev Arr2 (n0 n1 : Nat) : Type := (⟨2, ![n0, n1]⟩ : Shape).Idx → EReal
/-- A rank-1 array of extended reals with a literal extent. -/
abbrev Arr1 (n : Nat) : Type := (⟨1, ![n]⟩ : Shape).Idx → EReal

/-- Entry `(r, q)` of the matrix product `A · W`. -/
def lin {n k c : Nat} (A : Arr2 n k) (W : Arr2 k c) (r : Fin n) (q : Fin c) : EReal :=
  ∑ j : Fin k, A (ix2 r j) * W (ix2 j q)

/-- First layer before aggregation: row `r` of `x · W` scaled by `d r`. -/
def scaledLin (x : Arr2 50000 768) (W : Arr2 768 128) (d : Arr2 50000 1) : Arr2 50000 128 :=
  fun i => lin x W (i 0) (i 1) * d (ix2 (i 0) 0)

/-- A layer's activation from the aggregated array `a`: `relu (d r · a r k + b k)`. -/
def act (a : Arr2 50000 128) (d : Arr2 50000 1) (b : Arr2 1 128) : Arr2 50000 128 :=
  fun i => max (d (ix2 (i 0) 0) * a i + b (ix2 0 (i 1))) 0

/-- Second layer before aggregation: row `r` of `act · W` scaled by `d r`. -/
def scaledHidden (a : Arr2 50000 128) (d : Arr2 50000 1) (b : Arr2 1 128) (W : Arr2 128 128) : Arr2 50000 128 :=
  fun i => lin (act a d b) W (i 0) (i 1) * d (ix2 (i 0) 0)

/-- The classifier: `act · W + bias`. -/
def logits (a : Arr2 50000 128) (d : Arr2 50000 1) (b : Arr2 1 128) (W : Arr2 128 32) (bf : Arr2 1 32) : Arr2 50000 32 :=
  fun i => lin (act a d b) W (i 0) (i 1) + bf (ix2 0 (i 1))

theorem scaledLin_apply (x : Arr2 50000 768) (W : Arr2 768 128) (d : Arr2 50000 1) (r : Fin 50000) (q : Fin 128) :
    scaledLin x W d (ix2 r q) = lin x W r q * d (ix2 r 0) := rfl

theorem act_apply (a : Arr2 50000 128) (d : Arr2 50000 1) (b : Arr2 1 128) (r : Fin 50000) (q : Fin 128) :
    act a d b (ix2 r q) = max (d (ix2 r 0) * a (ix2 r q) + b (ix2 0 q)) 0 := rfl

theorem scaledHidden_apply (a : Arr2 50000 128) (d : Arr2 50000 1) (b : Arr2 1 128) (W : Arr2 128 128)
    (r : Fin 50000) (q : Fin 128) :
    scaledHidden a d b W (ix2 r q) = lin (act a d b) W r q * d (ix2 r 0) := rfl

theorem logits_apply (a : Arr2 50000 128) (d : Arr2 50000 1) (b : Arr2 1 128) (W : Arr2 128 32) (bf : Arr2 1 32)
    (r : Fin 50000) (q : Fin 32) :
    logits a d b W bf (ix2 r q) = lin (act a d b) W r q + bf (ix2 0 q) := rfl

end Cert.Spec

end
-- ==== Proof.KAgg.lean ====
/-
  The two aggregated arrays of the kernel program, as terms of its arguments.
-/
import proofs.«113278_j87557203296773_2_alg».proof.Proof.KGlue
import proofs.«113278_j87557203296773_2_alg».proof.Proof.Spec

set_option maxRecDepth 16384

noncomputable section

namespace Cert.KValue

open Cert.KernelIdeal Cert.KernelIdeal.Gen Cert.KGlue
open Idealize.ShloMosaic Idealize.ShloMosaic.TcCoe Idealize.SL.Sem

variable (m : (ℓ : Loc nD τ sig) → Buf (Elt Ideal) ℓ) (ρ : Dev nD → PrngReg) (c : Dev nD)

/-- The first aggregate: the gathered rows of `(x · W₁) ⊙ d`, accumulated at the destinations. -/
def agg1v : FVec Ideal S50000x128 .f32 :=
  aggOf (F := Ideal) (src m ρ c) (dst m ρ c)
    (Cert.Spec.scaledLin (m ((c : Thread nD τ).loc main_arg0)) (m ((c : Thread nD τ).loc main_arg2)) (dcol m ρ c))

/-- The second aggregate: the gathered rows of the scaled hidden layer of the first aggregate. -/
def agg2v : FVec Ideal S50000x128 .f32 :=
  aggOf (F := Ideal) (src m ρ c) (dst m ρ c)
    (Cert.Spec.scaledHidden (agg1v m ρ c) (dcol m ρ c) (b1row m ρ c) (m ((c : Thread nD τ).loc main_arg4)))

end Cert.KValue

end
-- ==== Proof.KValCommon.lean ====
/-
  Small facts the three kernels' value proofs share, at the extended reals.

  Every kernel works on a block of 2000 rows. Inside a block a per-row scale (one column) is laid along the lanes,
  a bias (one row) is laid along the rows, and the two layers with an activation form `max (d · a + b) 0` entry by
  entry before the block product. Here: those two layouts read at an entry, and the activation block at an entry.
-/
import proofs.«113278_j87557203296773_2_alg».proof.Proof.Gen.KernelIdeal.Frame
import proofs.«113278_j87557203296773_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KVal

open Idealize.ShloMosaic Idealize.ShloMosaic.TcCoe Idealize.ShloMosaic.ValueIdx
open Idealize.ShloMosaic.Pipeline (Dat)
open Cert.KernelIdeal Cert.KernelIdeal.Gen

/-- The zero offsets of a whole-block access, as a constant function. -/
theorem hz : (![0, 0] : Fin 2 → Nat) = fun _ => 0 := funext fun a => by fin_cases a <;> rfl

/-- A column [2000,1] laid along the 128 lanes reads its row's one entry. -/
theorem col128_apply (x : FVec Ideal S2000x1 .f32) (p : Fin 2000) (q : Fin 128) :
    broadcastTo S2000x128 x broadcasts_S2000x1_S2000x128 (ix2 p q) = x (ix2 p 0) :=
  broadcastTo_apply x broadcasts_S2000x1_S2000x128 (ix2 p q) (ix2 p 0) (fun a => by
    match a with
    | ⟨0, _⟩ => rfl
    | ⟨1, _⟩ => rfl)

/-- A row [1,128] laid along the 2000 rows reads its lane's one entry. -/
theorem row128_apply (x : FVec Ideal S1x128 .f32) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => by
    match a with
    | ⟨0, _⟩ => rfl
    | ⟨1, _⟩ => rfl)

/-- The activation block at local entry (p, k): `max (d p · a p k + b k) 0`, the scale `d` a column, the bias `b` a row. -/
theorem actBlk_apply (d : FVec Ideal S2000x1 .f32) (a : FVec Ideal S2000x128 .f32) (b : FVec Ideal S1x128 .f32)
    (p : Fin 2000) (k : Fin 128) :
    (truncf .bf16 (maximumf (addf (mulf (broadcastTo S2000x128 (shapeCast S2000x1 d shapeCasts_S2000x1_S2000x1) broadcasts_S2000x1_S2000x128)
        (shapeCast S2000x128 a shapeCasts_S2000x128_S2000x128))
        (broadcastTo S2000x128 (shapeCast S1x128 b shapeCasts_S1x128_S1x128) broadcasts_S1x128_S2000x128))
        (broadcast S2000x128 (Scalar.ofBits (F := Ideal) .f32 0x00000000#32))) bitsLt_bf16_f32 : FVec Ideal S2000x128 .bf16) (ix2 p k)
      = max (d (ix2 p 0) * a (ix2 p k) + b (ix2 0 k)) 0 := by
  rw [truncf_apply, maximumf_apply, addf_apply, mulf_apply, broadcast_apply, shapeCast_self, shapeCast_self, shapeCast_self,
    col128_apply, row128_apply]
  show max _ (Ideal.ofBits .f32 0x00000000#32) = _
  rw [Ideal.ofBits_zero_f32]

end Cert.KVal

end
-- ==== Proof.KVal0.lean ====
/-
  The first kernel's value: after its region the output array holds, at row r and column q,
  `(Σ_k x r k · W k q) · d r` of the arrays the region found.

  Each of the 25 grid points handles rows 2000 t … 2000 t + 1999: it reads that row block of `x` and of the scale column
  `d`, the whole weight `W`, forms the block product and scales row p by `d (2000 t + p)`. So the block a point writes
  back is the restriction of ONE whole-array function to the point's rows, and the 25 row blocks tile the 50000 rows.
-/
import proofs.«113278_j87557203296773_2_alg».proof.Proof.KValCommon

set_option maxRecDepth 16384

noncomputable section

open scoped BigOperators

namespace Cert.KVal

open Idealize.ShloMosaic Idealize.ShloMosaic.TcCoe Idealize.ShloMosaic.ValueIdx
open Idealize.ShloMosaic.Pipeline (Dat)
open Cert.KernelIdeal Cert.KernelIdeal.Gen

/-- The operand indices of the block product at output index `i` and contraction index `g`: the left operand is read at
    (row of `i`, `g`), the right one at (`g`, column of `i`). -/
theorem lhs0_0 (i : S2000x128.Idx) (g : dot_S2000x768_S768x128_S2000x128_1_0_0_1_n_n.contr.Idx) :
    (dot_S2000x768_S768x128_S2000x128_1_0_0_1_n_n.lhsIdx i g 0).val = (i 0).val := by
  unfold DotDims.lhsIdx
  rw [dif_neg (show ¬(0 : Fin S2000x768.rank) ∈ dot_S2000x768_S768x128_S2000x128_1_0_0_1_n_n.lhsBatch by decide), dif_pos (show (0 : Fin S2000x768.rank) ∈ dot_S2000x768_S768x128_S2000x128_1_0_0_1_n_n.lhsNonContracting by decide)]
  rfl
theorem lhs0_1 (i : S2000x128.Idx) (g : dot_S2000x768_S768x128_S2000x128_1_0_0_1_n_n.contr.Idx) :
    (dot_S2000x768_S768x128_S2000x128_1_0_0_1_n_n.lhsIdx i g 1).val = (g ⟨0, by decide⟩).val :=
  dot_S2000x768_S768x128_S2000x128_1_0_0_1_n_n.lhsIdx_val_of_single rfl i g
theorem rhs0_0 (i : S2000x128.Idx) (g : dot_S2000x768_S768x128_S2000x128_1_0_0_1_n_n.contr.Idx) :
    (dot_S2000x768_S768x128_S2000x128_1_0_0_1_n_n.rhsIdx i g 0).val = (g ⟨0, by decide⟩).val :=
  dot_S2000x768_S768x128_S2000x128_1_0_0_1_n_n.rhsIdx_val_of_single rfl i g
theorem rhs0_1 (i : S2000x128.Idx) (g : dot_S2000x768_S768x128_S2000x128_1_0_0_1_n_n.contr.Idx) :
    (dot_S2000x768_S768x128_S2000x128_1_0_0_1_n_n.rhsIdx i g 1).val = (i 1).val := by
  unfold DotDims.rhsIdx
  rw [dif_neg (show ¬(1 : Fin S768x128.rank) ∈ dot_S2000x768_S768x128_S2000x128_1_0_0_1_n_n.rhsBatch by decide), dif_pos (show (1 : Fin S768x128.rank) ∈ dot_S2000x768_S768x128_S2000x128_1_0_0_1_n_n.rhsNonContracting by decide)]
  rfl

/-- The block product into a zero accumulator, at an entry: the sum over the contracted axis of the operands' products. -/
theorem mm0_apply (a : FVec Ideal S2000x768 .bf16) (b : FVec Ideal S768x128 .bf16) (p : Fin 2000) (q : Fin 128) :
    matmul dot_S2000x768_S768x128_S2000x128_1_0_0_1_n_n none a b (constant (F := Ideal) S2000x128 .f32 0x00000000#32) (ix2 p q)
      = ∑ k : Fin 768, a (ix2 p k) * b (ix2 k q) := by
  simp only [matmul]
  rw [Ideal.matmul_constant_zero_apply, ← Equiv.sum_comp (contrEquiv1 dot_S2000x768_S768x128_S2000x128_1_0_0_1_n_n 768 rfl rfl).symm]
  refine Finset.sum_congr rfl fun k _ => ?_
  have hk := contrEquiv1_symm_val dot_S2000x768_S768x128_S2000x128_1_0_0_1_n_n 768 rfl rfl k
  have el : dot_S2000x768_S768x128_S2000x128_1_0_0_1_n_n.lhsIdx (ix2 p q) ((contrEquiv1 dot_S2000x768_S768x128_S2000x128_1_0_0_1_n_n 768 rfl rfl).symm k) = ix2 p k := funext fun a => Fin.ext (by
    match a with
    | ⟨0, _⟩ => exact lhs0_0 _ _
    | ⟨1, _⟩ => exact (lhs0_1 _ _).trans hk)
  have er : dot_S2000x768_S768x128_S2000x128_1_0_0_1_n_n.rhsIdx (ix2 p q) ((contrEquiv1 dot_S2000x768_S768x128_S2000x128_1_0_0_1_n_n 768 rfl rfl).symm k) = ix2 k q := funext fun a => Fin.ext (by
    match a with
    | ⟨0, _⟩ => exact (rhs0_0 _ _).trans hk
    | ⟨1, _⟩ => exact rhs0_1 _ _)
  rw [el, er]

/-- The first kernel's stored block at a local entry: the block product, row p scaled by the scale column's entry. -/
theorem pay0_apply (x0 : Vec Ideal S2000x768 .f32) (x1 : Vec Ideal S768x128 .f32) (x2 : Vec Ideal S2000x1 .f32) (p : Fin 2000) (q : Fin 128) :
    k0_pay1 (F := Ideal) x0 x1 x2 (ix2 p q) = (∑ k : Fin 768, x0 (ix2 p k) * x1 (ix2 k q)) * x2 (ix2 p 0) := by
  unfold k0_pay1
  rw [truncf_apply, mulf_apply]
  refine congrArg₂ (· * ·) ?_ ?_
  · exact mm0_apply _ _ p q
  · rw [shapeCast_self]; exact col128_apply x2 p q

variable (V : (c : Dev nD) → (b : Ref sig .tc) → Buf (Elt Ideal) ((c : Thread nD τ).loc b))

/-- The printed index maps over the grid: the row-blocked windows sit at block (t, 0), the whole-array window at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the row-blocked input, at local (p, k), is row 2000 t + p of the array. -/
theorem iblk0_0_apply (c : Dev nD) (t : Fin cfg0.N) (p : Fin 2000) (k : Fin 768) (r : Fin 50000)
    (hr : r.val = 2000 * t.val + p.val) :
    (iblk0 V c 0 t : Vec Ideal S2000x768 .f32) (ix2 p k) = (V c main_arg0 : S50000x768.Idx → EReal) (ix2 r k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 768 + 1 * k.val = k.val; omega

/-- The weight window's one block is the whole weight array. -/
theorem iblk0_1_apply (c : Dev nD) (t : Fin cfg0.N) (k : Fin 768) (q : Fin 128) :
    (iblk0 V c 1 t : Vec Ideal S768x128 .f32) (ix2 k q) = (V c main_arg2 : S768x128.Idx → EReal) (ix2 k q) := by
  obtain ⟨-, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 768 + 1 * k.val = k.val; omega
  | ⟨1, _⟩ => show win0_1.index t (1 : Fin 2) * 128 + 1 * q.val = q.val; omega

/-- Block t of the scale column, at local row p, is row 2000 t + p of the column. -/
theorem iblk0_2_apply (c : Dev nD) (t : Fin cfg0.N) (p : Fin 2000) (r : Fin 50000)
    (hr : r.val = 2000 * t.val + p.val) :
    (iblk0 V c 2 t : Vec Ideal S2000x1 .f32) (ix2 p 0) = (V c main_v17 : S50000x1.Idx → EReal) (ix2 r 0) := by
  obtain ⟨-, -, -, -, e0, e1, -⟩ := idx_facts0 t
  unfold iblk0
  rw [View.read_apply]
  show V c main_v17 _ = V c main_v17 _
  refine congrArg (V c main_v17) (funext fun a => Fin.ext ?_)
  match a with
  | ⟨0, _⟩ => show win0_2.index t (0 : Fin 2) * 2000 + 1 * p.val = r.val; omega
  | ⟨1, _⟩ => show win0_2.index t (1 : Fin 2) * 1 + 1 * 0 = 0; omega

/-- Local entry (p, q) of the output's block t sits at row 2000 t + p, column q of the array. -/
theorem emb0_3 (t : Fin cfg0.N) (p : Fin 2000) (q : Fin 128) (r : Fin 50000) (hr : r.val = 2000 * t.val + p.val) :
    ((cfg0.win 3).blk t).view.emb (ix2 p q) = (ix2 r q : S50000x128.Idx) := by
  obtain ⟨-, -, -, -, -, -, e0, e1⟩ := idx_facts0 t
  refine funext fun a => Fin.ext ?_
  match a with
  | ⟨0, _⟩ => show win0_3.index t (0 : Fin 2) * 2000 + 1 * p.val = r.val; omega
  | ⟨1, _⟩ => show win0_3.index t (1 : Fin 2) * 128 + 1 * q.val = q.val; omega

/-- What point t writes back is block t of the whole-array function: rows 2000 t … 2000 t + 1999 of the scaled product. -/
theorem flushed0_eq (c : Dev nD) (t : Fin cfg0.N) :
    (dat0 (F := Ideal) V c).flushed 3 t
      = ((cfg0.win 3).blk t).view.read (Elt Ideal) (Cert.Spec.scaledLin (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S2000x768) hz, View.ld_unit_zero (S := S768x128) hz, View.ld_unit_zero (S := S2000x1) hz]
  funext j
  obtain ⟨p, q, rfl⟩ : ∃ (p : Fin 2000) (q : Fin 128), j = ix2 p q := ⟨j 0, j 1, eq_ix2 j⟩
  have ht : t.val < 25 := lt_of_lt_of_eq t.isLt N_0
  have hp : p.val < 2000 := p.isLt
  rw [View.read_apply, emb0_3 t p q ⟨2000 * t.val + p.val, by omega⟩ rfl]
  refine (pay0_apply (iblk0 V c 0 t) (iblk0 V c 1 t) (iblk0 V c 2 t) p q).trans ?_
  rw [iblk0_2_apply V c t p ⟨2000 * t.val + p.val, by omega⟩ rfl]
  refine congrArg (· * _) (Finset.sum_congr rfl fun k _ => ?_)
  rw [iblk0_0_apply V c t p k ⟨2000 * t.val + p.val, by omega⟩ rfl, iblk0_1_apply V c t k q]

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v21).slice (win0_3.rect t)).set ↔ _
  rw [View.set_slice_whole, Rect.mem_set_unit]
  exact Iff.rfl

/-- The 25 row blocks tile the 50000 rows: row r lies in block r / 2000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have htv : t.val = (i 0).val / 2000 := rfl
  obtain ⟨-, -, -, -, -, -, e0, e1⟩ := idx_facts0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the first region its output array holds the scaled product of the arrays the region found. -/
theorem final0 (c : Dev nD) :
    (dat0 (F := Ideal) V c).arrAt 3 cfg0.N = Cert.Spec.scaledLin (V c main_arg0) (V c main_arg2) (V c main_v17) :=
  (dat0 (F := Ideal) V c).arrAt_eq_of_cover 3 (Cert.Spec.scaledLin (V c main_arg0) (V c main_arg2) (V c main_v17))
    (fun t _ => flushed0_eq V c t) cover0

end Cert.KVal

end
-- ==== Proof.KVal1.lean ====
/-
  The second kernel's value: after its region the output array holds, at row r and column q,
  `(Σ_k max (d r · a r k + b k) 0 · W k q) · d r` of the arrays the region found.

  Each of the 25 grid points handles rows 2000 t … 2000 t + 1999: it reads that row block of the aggregated array `a`
  and of the scale column `d`, and the whole bias row `b` and weight `W`; it forms the activation block, multiplies it
  by `W` and scales row p by `d (2000 t + p)` again. The block a point writes back is the restriction of ONE whole-array
  function to the point's rows, and the 25 row blocks tile the 50000 rows.
-/
import proofs.«113278_j87557203296773_2_alg».proof.Proof.KValCommon

set_option maxRecDepth 16384

noncomputable section

open scoped BigOperators

namespace Cert.KVal

open Idealize.ShloMosaic Idealize.ShloMosaic.TcCoe Idealize.ShloMosaic.ValueIdx
open Idealize.ShloMosaic.Pipeline (Dat)
open Cert.KernelIdeal Cert.KernelIdeal.Gen

/-- The operand indices of the block product at output index `i` and contraction index `g`: the left operand is read at
    (row of `i`, `g`), the right one at (`g`, column of `i`). -/
theorem lhs1_0 (i : S2000x128.Idx) (g : dot_S2000x128_S128x128_S2000x128_1_0_0_1_n_n.contr.Idx) :
    (dot_S2000x128_S128x128_S2000x128_1_0_0_1_n_n.lhsIdx i g 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1_1 (i : S2000x128.Idx) (g : dot_S2000x128_S128x128_S2000x128_1_0_0_1_n_n.contr.Idx) :
    (dot_S2000x128_S128x128_S2000x128_1_0_0_1_n_n.lhsIdx i g 1).val = (g ⟨0, by decide⟩).val :=
  dot_S2000x128_S128x128_S2000x128_1_0_0_1_n_n.lhsIdx_val_of_single rfl i g
theorem rhs1_0 (i : S2000x128.Idx) (g : dot_S2000x128_S128x128_S2000x128_1_0_0_1_n_n.contr.Idx) :
    (dot_S2000x128_S128x128_S2000x128_1_0_0_1_n_n.rhsIdx i g 0).val = (g ⟨0, by decide⟩).val :=
  dot_S2000x128_S128x128_S2000x128_1_0_0_1_n_n.rhsIdx_val_of_single rfl i g
theorem rhs1_1 (i : S2000x128.Idx) (g : dot_S2000x128_S128x128_S2000x128_1_0_0_1_n_n.contr.Idx) :
    (dot_S2000x128_S128x128_S2000x128_1_0_0_1_n_n.rhsIdx i g 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an entry: the sum over the contracted axis of the operands' products. -/
theorem mm1_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The second kernel's stored block at a local entry: the activation block times the weight, row p scaled by the scale
    column's entry. -/
theorem pay1_apply (d : Vec Ideal S2000x1 .f32) (a : Vec Ideal S2000x128 .f32) (b : Vec Ideal S1x128 .f32)
    (w : Vec Ideal S128x128 .f32) (d' : Vec Ideal S2000x1 .f32) (p : Fin 2000) (q : Fin 128) :
    k1_pay1 (F := Ideal) d a b w d' (ix2 p q)
      = (∑ k : Fin 128, max (d (ix2 p 0) * a (ix2 p k) + b (ix2 0 k)) 0 * w (ix2 k q)) * d' (ix2 p 0) := by
  unfold k1_pay1
  rw [truncf_apply, mulf_apply]
  refine congrArg₂ (· * ·) ?_ ?_
  · refine (mm1_apply _ _ p q).trans (Finset.sum_congr rfl fun k _ => ?_)
    refine congrArg₂ (· * ·) ?_ ?_
    · exact actBlk_apply d a b p k
    · rfl
  · rw [shapeCast_self]; exact col128_apply d' p q

variable (V : (c : Dev nD) → (b : Ref sig .tc) → Buf (Elt Ideal) ((c : Thread nD τ).loc b))

/-- The printed index maps over the grid: the row-blocked windows sit at block (t, 0), the whole-array windows at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the row-blocked input, at local (p, k), is row 2000 t + p of the array. -/
theorem iblk1_0_apply (c : Dev nD) (t : Fin cfg1.N) (p : Fin 2000) (k : Fin 128) (r : Fin 50000)
    (hr : r.val = 2000 * t.val + p.val) :
    (iblk1 V c 0 t : Vec Ideal S2000x128 .f32) (ix2 p k) = (V c main_v32 : S50000x128.Idx → EReal) (ix2 r k) := by
  obtain ⟨e0, e1, -, -, -, -, -, -, -, -⟩ := idx_facts1 t
  unfold iblk1
  rw [View.read_apply]
  show V c main_v32 _ = V c main_v32 _
  refine congrArg (V c main_v32) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Block t of the scale column, at local row p, is row 2000 t + p of the column. -/
theorem iblk1_1_apply (c : Dev nD) (t : Fin cfg1.N) (p : Fin 2000) (r : Fin 50000)
    (hr : r.val = 2000 * t.val + p.val) :
    (iblk1 V c 1 t : Vec Ideal S2000x1 .f32) (ix2 p 0) = (V c main_v17 : S50000x1.Idx → EReal) (ix2 r 0) := by
  obtain ⟨-, -, e0, e1, -, -, -, -, -, -⟩ := idx_facts1 t
  unfold iblk1
  rw [View.read_apply]
  show V c main_v17 _ = V c main_v17 _
  refine congrArg (V c main_v17) (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

/-- A whole-array window's one block is its array. -/
theorem iblk1_2_apply (c : Dev nD) (t : Fin cfg1.N) (k : Fin 1) (q : Fin 128) :
    (iblk1 V c 2 t : Vec Ideal S1x128 .f32) (ix2 k q) = (V c main_v18 : S1x128.Idx → EReal) (ix2 k q) := by
  obtain ⟨-, -, -, -, e0, e1, -, -, -, -⟩ := idx_facts1 t
  unfold iblk1
  rw [View.read_apply]
  show V c main_v18 _ = V c main_v18 _
  refine congrArg (V c main_v18) (funext fun a => Fin.ext ?_)
  match a with
  | ⟨0, _⟩ => show win1_2.index t (0 : Fin 2) * 1 + 1 * k.val = k.val; omega
  | ⟨1, _⟩ => show win1_2.index t (1 : Fin 2) * 128 + 1 * q.val = q.val; omega

/-- A whole-array window's one block is its array. -/
theorem iblk1_3_apply (c : Dev nD) (t : Fin cfg1.N) (k : Fin 128) (q : Fin 128) :
    (iblk1 V c 3 t : Vec Ideal S128x128 .f32) (ix2 k q) = (V c main_arg4 : S128x128.Idx → EReal) (ix2 k q) := by
  obtain ⟨-, -, -, -, -, -, e0, e1, -, -⟩ := idx_facts1 t
  unfold iblk1
  rw [View.read_apply]
  show V c main_arg4 _ = V c main_arg4 _
  refine congrArg (V c main_arg4) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Local entry (p, q) of the output's block t sits at row 2000 t + p, column q of the array. -/
theorem emb1_4 (t : Fin cfg1.N) (p : Fin 2000) (q : Fin 128) (r : Fin 50000) (hr : r.val = 2000 * t.val + p.val) :
    ((cfg1.win 4).blk t).view.emb (ix2 p q) = (ix2 r q : S50000x128.Idx) := by
  obtain ⟨-, -, -, -, -, -, -, -, e0, e1⟩ := idx_facts1 t
  refine funext fun a => Fin.ext ?_
  match a with
  | ⟨0, _⟩ => show win1_4.index t (0 : Fin 2) * 2000 + 1 * p.val = r.val; omega
  | ⟨1, _⟩ => show win1_4.index t (1 : Fin 2) * 128 + 1 * q.val = q.val; omega

/-- What point t writes back is block t of the whole-array function: rows 2000 t … 2000 t + 1999 of the scaled hidden layer. -/
theorem flushed1_eq (c : Dev nD) (t : Fin cfg1.N) :
    (dat1 (F := Ideal) V c).flushed 4 t
      = ((cfg1.win 4).blk t).view.read (Elt Ideal) (Cert.Spec.scaledHidden (V c main_v32) (V c main_v17) (V c main_v18) (V c main_arg4)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have ht : t.val < 25 := lt_of_lt_of_eq t.isLt N_1
  have hp : p.val < 2000 := p.isLt
  rw [View.read_apply, emb1_4 t p q ⟨2000 * t.val + p.val, by omega⟩ rfl]
  refine (pay1_apply (iblk1 V c 1 t) (iblk1 V c 0 t) (iblk1 V c 2 t) (iblk1 V c 3 t) (iblk1 V c 1 t) p q).trans ?_
  rw [iblk1_1_apply V c t p ⟨2000 * t.val + p.val, by omega⟩ rfl]
  refine congrArg (· * _) (Finset.sum_congr rfl fun k _ => ?_)
  rw [iblk1_0_apply V c t p k ⟨2000 * t.val + p.val, by omega⟩ rfl, iblk1_2_apply V c t 0 k, iblk1_3_apply V c t k q]
  rfl

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v33).slice (win1_4.rect t)).set ↔ _
  rw [View.set_slice_whole, Rect.mem_set_unit]
  exact Iff.rfl

/-- The 25 row blocks tile the 50000 rows: row r lies in block r / 2000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have htv : t.val = (i 0).val / 2000 := rfl
  obtain ⟨-, -, -, -, -, -, -, -, e0, e1⟩ := idx_facts1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- After the second region its output array holds the scaled hidden layer of the arrays the region found. -/
theorem final1 (c : Dev nD) :
    (dat1 (F := Ideal) V c).arrAt 4 cfg1.N = Cert.Spec.scaledHidden (V c main_v32) (V c main_v17) (V c main_v18) (V c main_arg4) :=
  (dat1 (F := Ideal) V c).arrAt_eq_of_cover 4 (Cert.Spec.scaledHidden (V c main_v32) (V c main_v17) (V c main_v18) (V c main_arg4))
    (fun t _ => flushed1_eq V c t) cover1

end Cert.KVal

end
-- ==== Proof.KVal2.lean ====
/-
  The last kernel's value: after its region the output array holds, at row r and column q,
  `Σ_k max (d r · a r k + b k) 0 · W k q + bf q` of the arrays the region found.

  Each of the 25 grid points handles rows 2000 t … 2000 t + 1999: it reads that row block of the aggregated array `a`
  and of the scale column `d`, and the whole bias row `b`, weight `W` and classifier bias `bf`; it forms the activation
  block, multiplies it by `W` and adds `bf` along the rows. The block a point writes back is the restriction of ONE
  whole-array function to the point's rows, and the 25 row blocks tile the 50000 rows.
-/
import proofs.«113278_j87557203296773_2_alg».proof.Proof.KValCommon

set_option maxRecDepth 16384

noncomputable section

open scoped BigOperators

namespace Cert.KVal

open Idealize.ShloMosaic Idealize.ShloMosaic.TcCoe Idealize.ShloMosaic.ValueIdx
open Idealize.ShloMosaic.Pipeline (Dat)
open Cert.KernelIdeal Cert.KernelIdeal.Gen

/-- The operand indices of the block product at output index `i` and contraction index `g`: the left operand is read at
    (row of `i`, `g`), the right one at (`g`, column of `i`). -/
theorem lhs2_0 (i : S2000x32.Idx) (g : dot_S2000x128_S128x32_S2000x32_1_0_0_1_n_n.contr.Idx) :
    (dot_S2000x128_S128x32_S2000x32_1_0_0_1_n_n.lhsIdx i g 0).val = (i 0).val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
theorem lhs2_1 (i : S2000x32.Idx) (g : dot_S2000x128_S128x32_S2000x32_1_0_0_1_n_n.contr.Idx) :
    (dot_S2000x128_S128x32_S2000x32_1_0_0_1_n_n.lhsIdx i g 1).val = (g ⟨0, by decide⟩).val :=
  dot_S2000x128_S128x32_S2000x32_1_0_0_1_n_n.lhsIdx_val_of_single rfl i g
theorem rhs2_0 (i : S2000x32.Idx) (g : dot_S2000x128_S128x32_S2000x32_1_0_0_1_n_n.contr.Idx) :
    (dot_S2000x128_S128x32_S2000x32_1_0_0_1_n_n.rhsIdx i g 0).val = (g ⟨0, by decide⟩).val :=
  dot_S2000x128_S128x32_S2000x32_1_0_0_1_n_n.rhsIdx_val_of_single rfl i g
theorem rhs2_1 (i : S2000x32.Idx) (g : dot_S2000x128_S128x32_S2000x32_1_0_0_1_n_n.contr.Idx) :
    (dot_S2000x128_S128x32_S2000x32_1_0_0_1_n_n.rhsIdx i g 1).val = (i 1).val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl

/-- The block product into a zero accumulator, at an entry: the sum over the contracted axis of the operands' products. -/
theorem mm2_apply (a : FVec Ideal S2000x128 .bf16) (b : FVec Ideal S128x32 .bf16) (p : Fin 2000) (q : Fin 32) :
    matmul dot_S2000x128_S128x32_S2000x32_1_0_0_1_n_n none a b (constant (F := Ideal) S2000x32 .f32 0x00000000#32) (ix2 p q)
      = ∑ k : Fin 128, a (ix2 p k) * b (ix2 k q) := by
  simp only [matmul]
  rw [Ideal.matmul_constant_zero_apply, ← Equiv.sum_comp (contrEquiv1 dot_S2000x128_S128x32_S2000x32_1_0_0_1_n_n 128 rfl rfl).symm]
  refine Finset.sum_congr rfl fun k _ => ?_
  have hk := contrEquiv1_symm_val dot_S2000x128_S128x32_S2000x32_1_0_0_1_n_n 128 rfl rfl k
  have el : dot_S2000x128_S128x32_S2000x32_1_0_0_1_n_n.lhsIdx (ix2 p q) ((contrEquiv1 dot_S2000x128_S128x32_S2000x32_1_0_0_1_n_n 128 rfl rfl).symm k) = ix2 p k := funext fun a => Fin.ext (by
    match a with
    | ⟨0, _⟩ => exact lhs2_0 _ _
    | ⟨1, _⟩ => exact (lhs2_1 _ _).trans hk)
  have er : dot_S2000x128_S128x32_S2000x32_1_0_0_1_n_n.rhsIdx (ix2 p q) ((contrEquiv1 dot_S2000x128_S128x32_S2000x32_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-- A row [1,32] laid along the 2000 rows reads its lane's one entry. -/
theorem row32_apply (x : FVec Ideal S1x32 .f32) (p : Fin 2000) (q : Fin 32) :
    broadcastTo S2000x32 x broadcasts_S1x32_S2000x32 (ix2 p q) = x (ix2 0 q) :=
  broadcastTo_apply x broadcasts_S1x32_S2000x32 (ix2 p q) (ix2 0 q) (fun a => by
    match a with
    | ⟨0, _⟩ => rfl
    | ⟨1, _⟩ => rfl)

/-- The last kernel's stored block at a local entry: the activation block times the weight, plus the bias row. -/
theorem pay2_apply (d : Vec Ideal S2000x1 .f32) (a : Vec Ideal S2000x128 .f32) (b : Vec Ideal S1x128 .f32)
    (w : Vec Ideal S128x32 .f32) (bf : Vec Ideal S1x32 .f32) (p : Fin 2000) (q : Fin 32) :
    k2_pay1 (F := Ideal) d a b w bf (ix2 p q)
      = (∑ k : Fin 128, max (d (ix2 p 0) * a (ix2 p k) + b (ix2 0 k)) 0 * w (ix2 k q)) + bf (ix2 0 q) := by
  unfold k2_pay1
  rw [addf_apply]
  refine congrArg₂ (· + ·) ?_ ?_
  · refine (mm2_apply _ _ p q).trans (Finset.sum_congr rfl fun k _ => ?_)
    refine congrArg₂ (· * ·) ?_ ?_
    · exact actBlk_apply d a b p k
    · rfl
  · rw [shapeCast_self]; exact row32_apply bf p q

variable (V : (c : Dev nD) → (b : Ref sig .tc) → Buf (Elt Ideal) ((c : Thread nD τ).loc b))

/-- The printed index maps over the grid: the row-blocked windows sit at block (t, 0), the whole-array windows at (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the row-blocked input, at local (p, k), is row 2000 t + p of the array. -/
theorem iblk2_0_apply (c : Dev nD) (t : Fin cfg2.N) (p : Fin 2000) (k : Fin 128) (r : Fin 50000)
    (hr : r.val = 2000 * t.val + p.val) :
    (iblk2 V c 0 t : Vec Ideal S2000x128 .f32) (ix2 p k) = (V c main_v44 : S50000x128.Idx → EReal) (ix2 r k) := by
  obtain ⟨e0, e1, -, -, -, -, -, -, -, -, -, -⟩ := idx_facts2 t
  unfold iblk2
  rw [View.read_apply]
  show V c main_v44 _ = V c main_v44 _
  refine congrArg (V c main_v44) (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- Block t of the scale column, at local row p, is row 2000 t + p of the column. -/
theorem iblk2_1_apply (c : Dev nD) (t : Fin cfg2.N) (p : Fin 2000) (r : Fin 50000)
    (hr : r.val = 2000 * t.val + p.val) :
    (iblk2 V c 1 t : Vec Ideal S2000x1 .f32) (ix2 p 0) = (V c main_v17 : S50000x1.Idx → EReal) (ix2 r 0) := by
  obtain ⟨-, -, e0, e1, -, -, -, -, -, -, -, -⟩ := idx_facts2 t
  unfold iblk2
  rw [View.read_apply]
  show V c main_v17 _ = V c main_v17 _
  refine congrArg (V c main_v17) (funext fun a => Fin.ext ?_)
  match a with
  | ⟨0, _⟩ => show win2_1.index t (0 : Fin 2) * 2000 + 1 * p.val = r.val; omega
  | ⟨1, _⟩ => show win2_1.index t (1 : Fin 2) * 1 + 1 * 0 = 0; omega

/-- A whole-array window's one block is its array. -/
theorem iblk2_2_apply (c : Dev nD) (t : Fin cfg2.N) (k : Fin 1) (q : Fin 128) :
    (iblk2 V c 2 t : Vec Ideal S1x128 .f32) (ix2 k q) = (V c main_v19 : S1x128.Idx → EReal) (ix2 k q) := by
  obtain ⟨-, -, -, -, e0, e1, -, -, -, -, -, -⟩ := idx_facts2 t
  unfold iblk2
  rw [View.read_apply]
  show V c main_v19 _ = V c main_v19 _
  refine congrArg (V c main_v19) (funext fun a => Fin.ext ?_)
  match a with
  | ⟨0, _⟩ => show win2_2.index t (0 : Fin 2) * 1 + 1 * k.val = k.val; omega
  | ⟨1, _⟩ => show win2_2.index t (1 : Fin 2) * 128 + 1 * q.val = q.val; omega

/-- A whole-array window's one block is its array. -/
theorem iblk2_3_apply (c : Dev nD) (t : Fin cfg2.N) (k : Fin 128) (q : Fin 32) :
    (iblk2 V c 3 t : Vec Ideal S128x32 .f32) (ix2 k q) = (V c main_arg6 : S128x32.Idx → EReal) (ix2 k q) := by
  obtain ⟨-, -, -, -, -, -, e0, e1, -, -, -, -⟩ := idx_facts2 t
  unfold iblk2
  rw [View.read_apply]
  show V c main_arg6 _ = V c main_arg6 _
  refine congrArg (V c main_arg6) (funext fun a => Fin.ext ?_)
  match a with
  | ⟨0, _⟩ => show win2_3.index t (0 : Fin 2) * 128 + 1 * k.val = k.val; omega
  | ⟨1, _⟩ => show win2_3.index t (1 : Fin 2) * 32 + 1 * q.val = q.val; omega

/-- A whole-array window's one block is its array. -/
theorem iblk2_4_apply (c : Dev nD) (t : Fin cfg2.N) (k : Fin 1) (q : Fin 32) :
    (iblk2 V c 4 t : Vec Ideal S1x32 .f32) (ix2 k q) = (V c main_v20 : S1x32.Idx → EReal) (ix2 k q) := by
  obtain ⟨-, -, -, -, -, -, -, -, e0, e1, -, -⟩ := idx_facts2 t
  unfold iblk2
  rw [View.read_apply]
  show V c main_v20 _ = V c main_v20 _
  refine congrArg (V c main_v20) (funext fun a => Fin.ext ?_)
  match a with
  | ⟨0, _⟩ => show win2_4.index t (0 : Fin 2) * 1 + 1 * k.val = k.val; omega
  | ⟨1, _⟩ => show win2_4.index t (1 : Fin 2) * 32 + 1 * q.val = q.val; omega

/-- Local entry (p, q) of the output's block t sits at row 2000 t + p, column q of the array. -/
theorem emb2_5 (t : Fin cfg2.N) (p : Fin 2000) (q : Fin 32) (r : Fin 50000) (hr : r.val = 2000 * t.val + p.val) :
    ((cfg2.win 5).blk t).view.emb (ix2 p q) = (ix2 r q : S50000x32.Idx) := by
  obtain ⟨-, -, -, -, -, -, -, -, -, -, e0, e1⟩ := idx_facts2 t
  refine funext fun a => Fin.ext ?_
  match a with
  | ⟨0, _⟩ => show win2_5.index t (0 : Fin 2) * 2000 + 1 * p.val = r.val; omega
  | ⟨1, _⟩ => show win2_5.index t (1 : Fin 2) * 32 + 1 * q.val = q.val; omega

/-- What point t writes back is block t of the whole-array function: rows 2000 t … 2000 t + 1999 of the classifier's output. -/
theorem flushed2_eq (c : Dev nD) (t : Fin cfg2.N) :
    (dat2 (F := Ideal) V c).flushed 5 t
      = ((cfg2.win 5).blk t).view.read (Elt Ideal) (Cert.Spec.logits (V c main_v44) (V c main_v17) (V c main_v19) (V c main_arg6) (V c main_v20)) := by
  show (cfg2.win 5).cut (grid2.coords t) ((dat2 V c).after 5 t) = _
  rw [after2_5]
  unfold out2_5
  rw [View.canon_unit_zero hz]
  simp only [View.ld_unit_zero (S := S2000x128) hz, View.ld_unit_zero (S := S2000x1) hz, View.ld_unit_zero (S := S1x128) hz, View.ld_unit_zero (S := S128x32) hz, View.ld_unit_zero (S := S1x32) hz]
  funext j
  obtain ⟨p, q, rfl⟩ : ∃ (p : Fin 2000) (q : Fin 32), j = ix2 p q := ⟨j 0, j 1, eq_ix2 j⟩
  have ht : t.val < 25 := lt_of_lt_of_eq t.isLt N_2
  have hp : p.val < 2000 := p.isLt
  rw [View.read_apply, emb2_5 t p q ⟨2000 * t.val + p.val, by omega⟩ rfl]
  refine (pay2_apply (iblk2 V c 1 t) (iblk2 V c 0 t) (iblk2 V c 2 t) (iblk2 V c 3 t) (iblk2 V c 4 t) p q).trans ?_
  rw [iblk2_4_apply V c t 0 q]
  refine congrArg (· + _) (Finset.sum_congr rfl fun k _ => ?_)
  rw [iblk2_1_apply V c t p ⟨2000 * t.val + p.val, by omega⟩ rfl, iblk2_0_apply V c t p k ⟨2000 * t.val + p.val, by omega⟩ rfl,
    iblk2_2_apply V c t 0 k, iblk2_3_apply V c t k q]
  rfl

/-- An index of the output array is in point t's block iff each coordinate is in the block's range on its axis. -/
theorem mem_blk2 (t : Fin cfg2.N) (i : S50000x32.Idx) :
    i ∈ ((cfg2.win 5).blk t).view.set ↔ ∀ a : Fin 2, win2_5.index t a * S2000x32.size a ≤ (i a).val ∧ (i a).val < win2_5.index t a * S2000x32.size a + S2000x32.size a := by
  show i ∈ ((View.whole main_v45).slice (win2_5.rect t)).set ↔ _
  rw [View.set_slice_whole, Rect.mem_set_unit]
  exact Iff.rfl

/-- The 25 row blocks tile the 50000 rows: row r lies in block r / 2000. -/
theorem cover2 (i : S50000x32.Idx) :
    ∃ t : Fin cfg2.N, (cfg2.win 5).flush t = true ∧ i ∈ ((cfg2.win 5).blk t).view.set := by
  have hi0 : (i 0).val < 50000 := (i 0).isLt
  have hi1 : (i 1).val < 32 := (i 1).isLt
  have hN : cfg2.N = 25 := N_2
  let t : Fin cfg2.N := ⟨(i 0).val / 2000, by rw [hN]; omega⟩
  have htv : t.val = (i 0).val / 2000 := rfl
  obtain ⟨-, -, -, -, -, -, -, -, -, -, e0, e1⟩ := idx_facts2 t
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 32 ≤ (i 1).val ∧ (i 1).val < win2_5.index t (1 : Fin 2) * 32 + 32; omega

/-- After the last region its output array holds the classifier's output of the arrays the region found. -/
theorem final2 (c : Dev nD) :
    (dat2 (F := Ideal) V c).arrAt 5 cfg2.N = Cert.Spec.logits (V c main_v44) (V c main_v17) (V c main_v19) (V c main_arg6) (V c main_v20) :=
  (dat2 (F := Ideal) V c).arrAt_eq_of_cover 5 (Cert.Spec.logits (V c main_v44) (V c main_v17) (V c main_v19) (V c main_arg6) (V c main_v20))
    (fun t _ => flushed2_eq V c t) cover2

end Cert.KVal

end
-- ==== Proof.KValue.lean ====
/-
  The idealized kernel program's result as one term of its arguments.

  Region by region: the third region's result is the classifier of the second aggregate; the second aggregate is the
  accumulation of the gathered rows of the second region's result; that result is the scaled hidden layer of the
  first aggregate; the first aggregate accumulates the gathered rows of the scaled first layer.
-/
import proofs.«113278_j87557203296773_2_alg».proof.Proof.KAgg
import proofs.«113278_j87557203296773_2_alg».proof.Proof.KVal0
import proofs.«113278_j87557203296773_2_alg».proof.Proof.KVal1
import proofs.«113278_j87557203296773_2_alg».proof.Proof.KVal2
import proofs.«113278_j87557203296773_2_alg».proof.Proof.Spec

set_option maxRecDepth 16384

noncomputable section

namespace Cert.KValue

open Cert.KernelIdeal Cert.KernelIdeal.Gen Cert.KGlue
open Idealize.ShloMosaic Idealize.ShloMosaic.TcCoe Idealize.SL.Sem

variable (m : (ℓ : Loc nD τ sig) → Buf (Elt Ideal) ℓ) (ρ : Dev nD → PrngReg) (c : Dev nD)

theorem kernel_value : W8 m ρ c (Proc.devRef .tc main_v45)
    = Cert.Spec.logits (agg2v m ρ c) (dcol m ρ c) (b2row m ρ c) (m ((c : Thread nD τ).loc main_arg6)) (bfrow m ρ c) := by
  have h2 : (dat2 (V7 m ρ) c).arrAt 5 cfg2.N
      = Cert.Spec.logits (W7 m ρ c (Proc.devRef .tc main_v44)) (W7 m ρ c (Proc.devRef .tc main_v17))
          (W7 m ρ c (Proc.devRef .tc main_v19)) (W7 m ρ c (Proc.devRef .tc main_arg6)) (W7 m ρ c (Proc.devRef .tc main_v20)) :=
    Cert.KVal.final2 (V7 m ρ) c
  have h1 : (dat1 (V5 m ρ) c).arrAt 4 cfg1.N
      = Cert.Spec.scaledHidden (W5 m ρ c (Proc.devRef .tc main_v32)) (W5 m ρ c (Proc.devRef .tc main_v17))
          (W5 m ρ c (Proc.devRef .tc main_v18)) (W5 m ρ c (Proc.devRef .tc main_arg4)) :=
    Cert.KVal.final1 (V5 m ρ) c
  have h0 : (dat0 (V3 m ρ) c).arrAt 3 cfg0.N
      = Cert.Spec.scaledLin (W3 m ρ c (Proc.devRef .tc main_arg0)) (W3 m ρ c (Proc.devRef .tc main_arg2))
          (W3 m ρ c (Proc.devRef .tc main_v17)) :=
    Cert.KVal.final0 (V3 m ρ) c
  rw [x8_v45, h2, e7_v44, e7_v17, e7_v19, e7_arg6, e7_v20, h1, e5_v32, e5_v17, e5_v18, e5_arg4, h0, e3_arg0, e3_arg2]
  rfl

end Cert.KValue

end
-- ==== Proof.KIds.lean ====
/-
  The host values the kernel program computes before its regions are the reference's own.

  Both programs form the same source and destination index arrays from the edge list (each edge column followed by
  the self-loops `0 … 49999`) and the same per-node scale (the reciprocal square root of the in-degree, with the same
  guards); the kernel program then only reshapes the scale to a column and each bias to a row.
-/
import proofs.«113278_j87557203296773_2_alg».proof.Proof.KGlue
import proofs.«113278_j87557203296773_2_alg».proof.Proof.RefReadP
import Idealize.ShloMosaic.Lib.ValueLayout
import Idealize.ShloMosaic.Lib.Pipeline.Value

set_option maxRecDepth 16384

noncomputable section

namespace Cert.KIds

open Cert.KernelIdeal Cert.KernelIdeal.Gen Cert.KGlue
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The source indices are the reference's. -/
theorem src_eq : src m ρ c = Cert.ReferenceIdeal.ReadP.val_main_v3 (F := Ideal) (m ((c : Thread nD τ).loc main_arg1)) := by
  show StableHlo.after hostOps0 (W0 m ρ c) (Proc.devRef .tc main_v5) = _
  after_results
  rfl

/-- The destination indices are the reference's. -/
theorem dst_eq : dst m ρ c = Cert.ReferenceIdeal.ReadP.val_main_v6 (F := Ideal) (m ((c : Thread nD τ).loc main_arg1)) := by
  show StableHlo.after hostOps0 (W0 m ρ c) (Proc.devRef .tc main_v6) = _
  after_results
  rfl

/-- The scale column is the reference's per-node scale, reshaped. -/
theorem dcol_eq : dcol m ρ c
    = shapeCast S50000x1 (Cert.ReferenceIdeal.ReadP.val_main_v16 (F := Ideal) (m ((c : Thread nD τ).loc main_arg1))) shapeCasts_S50000_S50000x1 := by
  have s2 : ∀ X : Valuation τ sig (Elt Ideal), StableHlo.after hostOps0_2 X (Proc.devRef .tc main_v17)
      = shapeCast S50000x1 (X (Proc.devRef .tc main_v16)) shapeCasts_S50000_S50000x1 := by
    intro X; after_results; rfl
  have s1 : ∀ X : Valuation τ sig (Elt Ideal), StableHlo.after hostOps0_1 X (Proc.devRef .tc main_v16)
      = select (X (Proc.devRef .tc main_v12)) (X (Proc.devRef .tc main_v15))
          (broadcastInDim S50000 ![] bcast_S_S50000 (X (Proc.devRef .tc main_cst_3))) := by
    intro X; after_results; rfl
  have s12 : StableHlo.after hostOps0 (W0 m ρ c) (Proc.devRef .tc main_v12)
      = Cert.ReferenceIdeal.ReadP.val_main_v12 (F := Ideal) (m ((c : Thread nD τ).loc main_arg1)) := by
    after_results_simp; rfl
  have s15 : StableHlo.after hostOps0 (W0 m ρ c) (Proc.devRef .tc main_v15)
      = Cert.ReferenceIdeal.ReadP.val_main_v15 (F := Ideal) (m ((c : Thread nD τ).loc main_arg1)) := by
    after_results_simp; rfl
  have s3 : StableHlo.after hostOps0 (W0 m ρ c) (Proc.devRef .tc main_cst_3)
      = Cert.ReferenceIdeal.ReadP.val_main_cst_3 (F := Ideal) := by
    after_results_simp; rfl
  show StableHlo.after hostOps0_2 (StableHlo.after hostOps0_1 (StableHlo.after hostOps0 (W0 m ρ c))) (Proc.devRef .tc main_v17) = _
  rw [s2, s1, s12, s15, s3]
  rfl

/-- Entry `(r, 0)` of the scale column is the scale of node `r`. -/
theorem dcol_at (r : Fin 50000) : dcol m ρ c (ix2 r 0)
    = Cert.ReferenceIdeal.ReadP.val_main_v16 (F := Ideal) (m ((c : Thread nD τ).loc main_arg1)) (ix1 r) := by
  rw [dcol_eq]
  refine shapeCast_apply _ _ (ix2 r 0) (ix1 r) ?_
  rw [Shape.rowMajor_val_two, Shape.rowMajor_val_one]
  show r.val = r.val * 1 + 0
  omega

/-- The first bias row is the first bias. -/
theorem b1row_at (k : Fin 128) : b1row m ρ c (ix2 0 k) = m ((c : Thread nD τ).loc main_arg3) (ix1 k) := by
  have h : b1row m ρ c = shapeCast S1x128 (m ((c : Thread nD τ).loc main_arg3)) shapeCasts_S128_S1x128 := by
    show StableHlo.after hostOps0_2 (StableHlo.after hostOps0_1 (StableHlo.after hostOps0 (W0 m ρ c))) (Proc.devRef .tc main_v18) = _
    after_results
    rfl
  rw [h]
  exact shapeCast_a_1a_apply _ _ 0 k

/-- The second bias row is the second bias. -/
theorem b2row_at (k : Fin 128) : b2row m ρ c (ix2 0 k) = m ((c : Thread nD τ).loc main_arg5) (ix1 k) := by
  have h : b2row m ρ c = shapeCast S1x128 (m ((c : Thread nD τ).loc main_arg5)) shapeCasts_S128_S1x128 := by
    show StableHlo.after hostOps0_2 (StableHlo.after hostOps0_1 (StableHlo.after hostOps0 (W0 m ρ c))) (Proc.devRef .tc main_v19) = _
    after_results
    rfl
  rw [h]
  exact shapeCast_a_1a_apply _ _ 0 k

/-- The classifier's bias row is its bias. -/
theorem bfrow_at (k : Fin 32) : bfrow m ρ c (ix2 0 k) = m ((c : Thread nD τ).loc main_arg7) (ix1 k) := by
  have h : bfrow m ρ c = shapeCast S1x32 (m ((c : Thread nD τ).loc main_arg7)) shapeCasts_S32_S1x32 := by
    show StableHlo.after hostOps0_2 (StableHlo.after hostOps0_1 (StableHlo.after hostOps0 (W0 m ρ c))) (Proc.devRef .tc main_v20) = _
    after_results
    rfl
  rw [h]
  exact shapeCast_a_1a_apply _ _ 0 k

end Cert.KIds

end
-- ==== Proof.RefStages.lean ====
/-
  The reference program's dense stages read at an index.

  Each dense stage of the graph convolution is either a matrix product, read as the sum over the contracted axis of the
  products of the operands' entries, or a pointwise step: adding a bias that was broadcast along the rows, and clamping
  below at zero. The aggregation steps between them stay opaque here; every statement names only the array that enters
  the dense step.
-/
import proofs.«113278_j87557203296773_2_alg».proof.Proof.RefReadP
import proofs.«113278_j87557203296773_2_alg».proof.Proof.Spec
import Idealize.ShloMosaic.Lib.ValueIdx
import Idealize.ShloMosaic.PureOps.Ideal
import Idealize.ShloMosaic.PureOps.Ideal.Laws

noncomputable section

open scoped BigOperators

namespace Cert.RefStages

open Cert.ReferenceIdeal Cert.ReferenceIdeal.ReadP Idealize.ShloMosaic Idealize.ShloMosaic.ValueIdx

/-! ## The index maps of a matrix product, in coordinates -/

/-- The left operand of the first product is read at row `r`, column `k`. -/
theorem lidx32 (r : Fin 50000) (q : Fin 128) (k : Fin 768) : lidx_main_v32 (ix2 r q) k = ix2 r k :=
  funext fun a => Fin.ext (by match a with | ⟨0, _⟩ => rfl | ⟨1, _⟩ => rfl)

/-- The right operand of the first product is read at row `k`, column `q`. -/
theorem ridx32 (r : Fin 50000) (q : Fin 128) (k : Fin 768) : ridx_main_v32 (ix2 r q) k = ix2 k q :=
  funext fun a => Fin.ext (by match a with | ⟨0, _⟩ => rfl | ⟨1, _⟩ => rfl)

/-- The left operand of the second product is read at row `r`, column `k`. -/
theorem lidx50 (r : Fin 50000) (q : Fin 128) (k : Fin 128) : lidx_main_v50 (ix2 r q) k = ix2 r k :=
  funext fun a => Fin.ext (by match a with | ⟨0, _⟩ => rfl | ⟨1, _⟩ => rfl)

/-- The right operand of the second product is read at row `k`, column `q`. -/
theorem ridx50 (r : Fin 50000) (q : Fin 128) (k : Fin 128) : ridx_main_v50 (ix2 r q) k = ix2 k q :=
  funext fun a => Fin.ext (by match a with | ⟨0, _⟩ => rfl | ⟨1, _⟩ => rfl)

/-- The left operand of the classifier's product is read at row `r`, column `k`. -/
theorem lidx68 (r : Fin 50000) (q : Fin 32) (k : Fin 128) : lidx_main_v68 (ix2 r q) k = ix2 r k :=
  funext fun a => Fin.ext (by match a with | ⟨0, _⟩ => rfl | ⟨1, _⟩ => rfl)

/-- The right operand of the classifier's product is read at row `k`, column `q`. -/
theorem ridx68 (r : Fin 50000) (q : Fin 32) (k : Fin 128) : ridx_main_v68 (ix2 r q) k = ix2 k q :=
  funext fun a => Fin.ext (by match a with | ⟨0, _⟩ => rfl | ⟨1, _⟩ => rfl)

/-! ## A bias broadcast along the rows, in coordinates -/

/-- A hidden layer's bias, first made a one-row matrix and then repeated down the rows, is read at the column. -/
theorem bias47 (r : Fin 50000) (q : Fin 128) : idx_main_v46 (idx_main_v47 (ix2 r q)) = ix1 q :=
  funext fun a => Fin.ext (by match a with | ⟨0, _⟩ => rfl)

/-- The same for the second hidden layer's bias. -/
theorem bias65 (r : Fin 50000) (q : Fin 128) : idx_main_v64 (idx_main_v65 (ix2 r q)) = ix1 q :=
  funext fun a => Fin.ext (by match a with | ⟨0, _⟩ => rfl)

/-- The same for the classifier's bias. -/
theorem bias70 (r : Fin 50000) (q : Fin 32) : idx_main_v69 (idx_main_v70 (ix2 r q)) = ix1 q :=
  funext fun a => Fin.ext (by match a with | ⟨0, _⟩ => rfl)

/-! ## The dense stages -/

/-- The first product: entry `(r, q)` of `x · W₁`. -/
theorem ref_h1 (x0 : (⟨S50000x768, .f32⟩ : BufTy).Contents (Elt Ideal)) (x2 : (⟨S768x128, .f32⟩ : BufTy).Contents (Elt Ideal))
    (r : Fin 50000) (q : Fin 128) :
    val_main_v32 (F := Ideal) x0 x2 (ix2 r q) = Cert.Spec.lin x0 x2 r q := by
  rw [val_main_v32_apply]
  simp only [lidx32, ridx32]
  rfl

/-- The classifier: entry `(r, q)` of `a₂ · W₃` plus the bias at column `q`. -/
theorem ref_out (x0 : (⟨S50000x768, .f32⟩ : BufTy).Contents (Elt Ideal)) (x1 : (⟨S2x1600000, .i32⟩ : BufTy).Contents (Elt Ideal))
    (x2 : (⟨S768x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x32, .f32⟩ : BufTy).Contents (Elt Ideal)) (x7 : (⟨S32, .f32⟩ : BufTy).Contents (Elt Ideal))
    (r : Fin 50000) (q : Fin 32) :
    val_main_v71 (F := Ideal) x0 x1 x2 x3 x4 x5 x6 x7 (ix2 r q)
      = Cert.Spec.lin (val_main_v67 (F := Ideal) x0 x1 x2 x3 x4 x5) x6 r q + x7 (ix1 q) := by
  rw [val_main_v71_apply, val_main_v68_apply, val_main_v70_apply, val_main_v69_apply]
  simp only [lidx68, ridx68, bias70, Ideal.addf_def]
  rfl

/-- The first activation: the aggregated array plus the bias at column `q`, clamped below at zero. -/
theorem ref_a1 (x0 : (⟨S50000x768, .f32⟩ : BufTy).Contents (Elt Ideal)) (x1 : (⟨S2x1600000, .i32⟩ : BufTy).Contents (Elt Ideal))
    (x2 : (⟨S768x128, .f32⟩ : BufTy).Contents (Elt Ideal)) (x3 : (⟨S128, .f32⟩ : BufTy).Contents (Elt Ideal))
    (r : Fin 50000) (q : Fin 128) :
    val_main_v49 (F := Ideal) x0 x1 x2 x3 (ix2 r q)
      = max (val_main_v45 (F := Ideal) x0 x1 x2 (ix2 r q) + x3 (ix1 q)) 0 := by
  rw [val_main_v49_apply, val_main_v48_apply, val_main_v47_apply, val_main_v46_apply, val_main_call1_v0_apply,
    val_main_call1_cst_apply]
  simp only [bias47, Ideal.maximumf_def, Ideal.addf_def, Ideal.ofBits_def, Ideal.ofBits_zero_f32]

/-- The second activation: the aggregated array plus the bias at column `q`, clamped below at zero. -/
theorem ref_a2 (x0 : (⟨S50000x768, .f32⟩ : BufTy).Contents (Elt Ideal)) (x1 : (⟨S2x1600000, .i32⟩ : BufTy).Contents (Elt Ideal))
    (x2 : (⟨S768x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 50000) (q : Fin 128) :
    val_main_v67 (F := Ideal) x0 x1 x2 x3 x4 x5 (ix2 r q)
      = max (val_main_v63 (F := Ideal) x0 x1 x2 x3 x4 (ix2 r q) + x5 (ix1 q)) 0 := by
  rw [val_main_v67_apply, val_main_v66_apply, val_main_v65_apply, val_main_v64_apply, val_main_call2_v0_apply,
    val_main_call2_cst_apply]
  simp only [bias65, Ideal.maximumf_def, Ideal.addf_def, Ideal.ofBits_def, Ideal.ofBits_zero_f32]

/-- The second product: entry `(r, q)` of `a₁ · W₂`. -/
theorem ref_h2 (x0 : (⟨S50000x768, .f32⟩ : BufTy).Contents (Elt Ideal)) (x1 : (⟨S2x1600000, .i32⟩ : BufTy).Contents (Elt Ideal))
    (x2 : (⟨S768x128, .f32⟩ : BufTy).Contents (Elt Ideal)) (x3 : (⟨S128, .f32⟩ : BufTy).Contents (Elt Ideal))
    (x4 : (⟨S128x128, .f32⟩ : BufTy).Contents (Elt Ideal))
    (r : Fin 50000) (q : Fin 128) :
    val_main_v50 (F := Ideal) x0 x1 x2 x3 x4 (ix2 r q)
      = Cert.Spec.lin (val_main_v49 (F := Ideal) x0 x1 x2 x3) x4 r q := by
  rw [val_main_v50_apply]
  simp only [lidx50, ridx50]
  rfl

end Cert.RefStages

end
-- ==== Proof.DinvFacts.lean ====
/-
  Facts about the per-node scale: the reciprocal square root of a degree that is at least one.

  The degree of a node counts its own loop, so it is at least one; the scale is then a nonnegative finite real. Where a
  mask selects between the scale and zero, both branches are nonnegative and finite.
-/
import Idealize.ShloMosaic.PureOps.Ideal
import Idealize.ShloMosaic.PureOps.Ideal.Laws
import Idealize.ShloMosaic.Lib.ValueIdx

noncomputable section

namespace Cert.DinvFacts

open Idealize.ShloMosaic Idealize.ShloMosaic.ValueIdx

/-- The single-precision word with sign 0, exponent 127 and fraction 0 denotes one. -/
theorem one_word : Ideal.ofBits .f32 0x3F800000#32 = 1 := by
  simp [Ideal.ofBits, Ideal.ieee, -EReal.coe_mul]
  norm_num

/-- The reciprocal square root of an extended real that is at least one is nonnegative and not `+∞`:
    at `+∞` it is zero, and at a real `r ≥ 1` it is the real `(√r)⁻¹ ≥ 0`. -/
theorem rsqrt_nonneg_of_one_le (y : EReal) (h : 1 ≤ y) : 0 ≤ Ideal.rsqrt y ∧ Ideal.rsqrt y ≠ ⊤ := by
  induction y using EReal.rec with
  | bot => exact absurd (le_bot_iff.mp h) (EReal.coe_ne_bot 1)
  | top => exact ⟨le_of_eq (by rfl), by show (0 : EReal) ≠ ⊤; exact EReal.zero_ne_top⟩
  | coe r =>
    have hr : (1 : ℝ) ≤ r := by exact_mod_cast h
    have h0 : ¬ r < 0 := not_lt.mpr (le_trans zero_le_one hr)
    have h1 : ¬ r = 0 := fun e => by rw [e] at hr; exact absurd hr (by norm_num)
    have e : Ideal.rsqrt (r : EReal) = (((Real.sqrt r)⁻¹ : ℝ) : EReal) := by
      show (if r < 0 then (⊥ : EReal) else if r = 0 then ⊤ else ((Real.sqrt r)⁻¹ : ℝ)) = _
      rw [if_neg h0, if_neg h1]
    rw [e]
    exact ⟨by exact_mod_cast inv_nonneg.mpr (Real.sqrt_nonneg r), EReal.coe_ne_top _⟩

/-- A mask choosing between the scale of a degree raised to at least one and zero gives a nonnegative finite value. -/
theorem sel_nonneg (b : BitVec 1) (y : EReal) :
    0 ≤ Scalar.select b (Ideal.rsqrt (max y 1)) 0 ∧ Scalar.select b (Ideal.rsqrt (max y 1)) 0 ≠ ⊤ := by
  rcases BitVec.eq_zero_or_eq_one b with hb | hb
  · subst hb
    rw [select_zero]
    exact ⟨le_refl _, EReal.zero_ne_top⟩
  · subst hb
    rw [select_one]
    exact rsqrt_nonneg_of_one_le _ (le_max_right _ _)

end Cert.DinvFacts

end
-- ==== Proof.RefStages2.lean ====
/-
  The reference program's per-edge pieces read at an index.

  Every edge `e` carries a source and a destination node. The per-node scale is nonnegative and finite. The array of
  destinations that the aggregation scatters through is, at row `e`, the destination of `e`. Where that destination,
  read as a signed integer, is a node number `r`, the index the scale is gathered through — the destination with a
  negative value wrapped around by the node count, then clamped — is `r` as well. The weight of an edge is the product
  of the scales gathered at its two ends, the same along a row, and an update row is the gathered row times that weight.
-/
import proofs.«113278_j87557203296773_2_alg».proof.Proof.RefReadP
import proofs.«113278_j87557203296773_2_alg».proof.Proof.DinvFacts
import Idealize.ShloMosaic.Lib.ValueIdx
import Idealize.ShloMosaic.PureOps.Ideal
import Idealize.ShloMosaic.PureOps.Ideal.Laws

noncomputable section

namespace Cert.RefStages2

open Cert.ReferenceIdeal Cert.ReferenceIdeal.ReadP Idealize.ShloMosaic Idealize.ShloMosaic.ValueIdx

/-! ## The per-node scale -/

/-- The scale of a node is nonnegative and finite: it is either zero or the reciprocal square root of a degree
    raised to at least one. -/
theorem dinv_bounds (x1 : (⟨S2x1600000, .i32⟩ : BufTy).Contents (Elt Ideal)) (i : S50000.Idx) :
    0 ≤ val_main_v16 (F := Ideal) x1 i ∧ val_main_v16 (F := Ideal) x1 i ≠ ⊤ := by
  rw [val_main_v16_apply, val_main_v15_apply, val_main_v14_apply, val_main_v13_apply, val_main_cst_2_apply,
    val_main_call0_v1_apply, val_main_call0_v0_apply, val_main_cst_3_apply]
  simp only [Ideal.hostUnary_rsqrt_def, Ideal.maximumf_def, Ideal.ofBits_def, Ideal.ofBits_zero_f32,
    Cert.DinvFacts.one_word]
  exact Cert.DinvFacts.sel_nonneg _ _

/-! ## Columns of edge data, in coordinates -/

/-- A one-column array made from a flat one is read at the row. -/
theorem idx44 (e : Fin 1650000) : idx_main_v44 (ix2 e 0) = ix1 e :=
  funext fun a => Fin.ext (by match a with | ⟨0, _⟩ => rfl)

theorem idx62 (e : Fin 1650000) : idx_main_v62 (ix2 e 0) = ix1 e :=
  funext fun a => Fin.ext (by match a with | ⟨0, _⟩ => rfl)

theorem idx29 (e : Fin 1650000) : idx_main_v29 (ix2 e 0) = ix1 e :=
  funext fun a => Fin.ext (by match a with | ⟨0, _⟩ => rfl)

/-- A flat array made a column and then repeated along the rows is read at the row. -/
theorem idx41 (e : Fin 1650000) (q : Fin 128) : idx_main_v40 (idx_main_v41 (ix2 e q)) = ix1 e :=
  funext fun a => Fin.ext (by match a with | ⟨0, _⟩ => rfl)

theorem idx59 (e : Fin 1650000) (q : Fin 128) : idx_main_v58 (idx_main_v59 (ix2 e q)) = ix1 e :=
  funext fun a => Fin.ext (by match a with | ⟨0, _⟩ => rfl)

/-! ## The destinations -/

/-- Row `e` of the first aggregation's index column is the destination of edge `e`. -/
theorem dst_at (x1 : (⟨S2x1600000, .i32⟩ : BufTy).Contents (Elt Ideal)) (e : Fin 1650000) :
    val_main_v44 (F := Ideal) x1 (ix2 e 0) = val_main_v6 (F := Ideal) x1 (ix1 e) := by
  rw [val_main_v44_apply, idx44]

/-- Row `e` of the second aggregation's index column is the destination of edge `e`. -/
theorem dst_at2 (x1 : (⟨S2x1600000, .i32⟩ : BufTy).Contents (Elt Ideal)) (e : Fin 1650000) :
    val_main_v62 (F := Ideal) x1 (ix2 e 0) = val_main_v6 (F := Ideal) x1 (ix1 e) := by
  rw [val_main_v62_apply, idx62]

/-- A word whose signed value is nonnegative is not below zero in the signed order. -/
theorem slt_zero_of_nonneg (a : BitVec 32) (h : 0 ≤ a.toInt) : IntOp.cmpi .slt a 0#32 = 0#1 := by
  have z : (0#32 : BitVec 32).toInt = 0 := by decide
  have hs : a.slt 0#32 = false := by
    unfold BitVec.slt
    rw [z]
    exact decide_eq_false (not_lt.mpr h)
  show BitVec.ofBool (a.slt 0#32) = 0#1
  rw [hs]
  rfl

/-- Where the destination of edge `e`, read signed, is the node number `r`, the wrapped and clamped index the scale
    is gathered through is `r`: the value is not negative, so it is not wrapped, and it is below the node count, so
    the clamp leaves it. -/
theorem wrap_at (x1 : (⟨S2x1600000, .i32⟩ : BufTy).Contents (Elt Ideal)) (e : Fin 1650000) (r : Fin 50000)
    (h : (val_main_v44 (F := Ideal) x1 (ix2 e 0)).toInt = (r.val : ℤ)) :
    min (val_main_v29 (F := Ideal) x1 (ix2 e 0)).toInt.toNat (50000 - 1) = r.val := by
  rw [dst_at] at h
  have e29 : val_main_v29 (F := Ideal) x1 (ix2 e 0) = val_main_v6 (F := Ideal) x1 (ix1 e) := by
    rw [val_main_v29_apply, idx29, val_main_v28_apply, val_main_v25_apply, val_main_v24_apply, val_main_c_5_apply,
      slt_zero_of_nonneg _ (by rw [h]; exact Int.natCast_nonneg _), select_zero]
  rw [e29, h, Int.toNat_natCast]
  have := r.isLt
  omega

/-! ## The weight of an edge and the update rows -/

/-- First layer: the weight at `(e, q)` is the product of the scales gathered at the two ends of edge `e`. -/
theorem norm_at1 (x1 : (⟨S2x1600000, .i32⟩ : BufTy).Contents (Elt Ideal)) (e : Fin 1650000) (q : Fin 128) :
    val_main_v41 (F := Ideal) x1 (ix2 e q)
      = val_main_v23 (F := Ideal) x1 (ix1 e) * val_main_v30 (F := Ideal) x1 (ix1 e) := by
  rw [val_main_v41_apply, val_main_v40_apply, idx41, val_main_v31_apply]
  rfl

/-- Second layer: the same weight. -/
theorem norm_at2 (x1 : (⟨S2x1600000, .i32⟩ : BufTy).Contents (Elt Ideal)) (e : Fin 1650000) (q : Fin 128) :
    val_main_v59 (F := Ideal) x1 (ix2 e q)
      = val_main_v23 (F := Ideal) x1 (ix1 e) * val_main_v30 (F := Ideal) x1 (ix1 e) := by
  rw [val_main_v59_apply, val_main_v58_apply, idx59, val_main_v31_apply]
  rfl

/-- First layer: an update row is the gathered row times the weight of its edge. -/
theorem upd1_at (x0 : (⟨S50000x768, .f32⟩ : BufTy).Contents (Elt Ideal)) (x1 : (⟨S2x1600000, .i32⟩ : BufTy).Contents (Elt Ideal))
    (x2 : (⟨S768x128, .f32⟩ : BufTy).Contents (Elt Ideal)) (e : Fin 1650000) (q : Fin 128) :
    val_main_v42 (F := Ideal) x0 x1 x2 (ix2 e q)
      = val_main_v39 (F := Ideal) x0 x1 x2 (ix2 e q)
        * (val_main_v23 (F := Ideal) x1 (ix1 e) * val_main_v30 (F := Ideal) x1 (ix1 e)) := by
  rw [val_main_v42_apply, norm_at1]
  rfl

/-- Second layer: an update row is the gathered row times the weight of its edge. -/
theorem upd2_at (x0 : (⟨S50000x768, .f32⟩ : BufTy).Contents (Elt Ideal)) (x1 : (⟨S2x1600000, .i32⟩ : BufTy).Contents (Elt Ideal))
    (x2 : (⟨S768x128, .f32⟩ : BufTy).Contents (Elt Ideal)) (x3 : (⟨S128, .f32⟩ : BufTy).Contents (Elt Ideal))
    (x4 : (⟨S128x128, .f32⟩ : BufTy).Contents (Elt Ideal)) (e : Fin 1650000) (q : Fin 128) :
    val_main_v60 (F := Ideal) x0 x1 x2 x3 x4 (ix2 e q)
      = val_main_v57 (F := Ideal) x0 x1 x2 x3 x4 (ix2 e q)
        * (val_main_v23 (F := Ideal) x1 (ix1 e) * val_main_v30 (F := Ideal) x1 (ix1 e)) := by
  rw [val_main_v60_apply, norm_at2]
  rfl

end Cert.RefStages2

end
-- ==== Proof.AggAlgebra.lean ====
/-
  The one algebraic law that joins the two programs, over the extended reals.

  Multiplication by a FINITE NON-NEGATIVE extended real distributes over addition (it is an additive map: it keeps
  `⊥` absorbing and `⊤` above every real), hence over any finite sum. So a row scale `c` applied after a sum of
  terms `h j · s j` is the sum of `h j · (s j · t j)` whenever every `t j` of the sum is `c`. No finiteness of the summands is used.
-/
import Mathlib.Data.EReal.Inv
import Mathlib.Algebra.BigOperators.Group.Finset.Basic

open scoped BigOperators

namespace Cert.AggAlgebra

/-- A finite non-negative factor distributes over a finite sum of extended reals. -/
theorem mul_sum_of_nonneg_of_ne_top {ι : Type*} (c : EReal) (h0 : 0 ≤ c) (ht : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top h0 ht, ih]

/-- The scale of the destination row, applied after the sum, is the scale applied inside it. -/
theorem scale_after_sum {ι : Type*} (S : Finset ι) (h s t : ι → EReal) (c : EReal) (h0 : 0 ≤ c) (ht : c ≠ ⊤)
    (hc : ∀ j ∈ S, t j = c) :
    c * (0 + ∑ j ∈ S, h j * s j) = 0 + ∑ j ∈ S, h j * (s j * t j) := by
  rw [zero_add, zero_add, mul_sum_of_nonneg_of_ne_top c h0 ht]
  refine Finset.sum_congr rfl fun j hj => ?_
  rw [hc j hj, mul_comm (s j) c, mul_left_comm]

end Cert.AggAlgebra
-- ==== Proof.LibScatterAddSum.lean ====
/-
  The host's accumulating scatter at the exact instance, read at an index.

  Over the extended reals the accumulation `x.at[idx].add(u)` is an exact sum whatever the order of the updates:
  element `i` of the result is `x i` plus the sum of the updates whose result index is `i`. Stated once over abstract
  shapes, so that a proof about a program's concrete arrays rewrites with it and never has to unfold the sum.
-/
import Idealize.ShloMosaic.PureOps.Ideal
import Idealize.ShloMosaic.PureOps.Contract

noncomputable section

namespace Cert.LibScatterAddSum

open Idealize.ShloMosaic

/-- `Host.scatterAdd` at the exact instance, at index `i`: the operand there plus the sum of the updates that land
    there (`ScatterDims.resultIdx?`). -/
theorem scatterAdd_apply {s si su : Shape} {φ : FTy} (d : ScatterDims s si su) {w : Nat} (x : FVec Ideal s φ) (idx : IVec si w)
    (upd : FVec Ideal su φ) (i : s.Idx) :
    Host.scatterAdd (F := Ideal) d x idx upd i
      = Ideal.hostScatterAdd d x idx upd i := rfl

/-- The sum itself, by the definition. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

end Cert.LibScatterAddSum

end
-- ==== Proof.LibScatterIndex.lean ====
import Idealize.ShloMosaic.PureOps.Dims
import Idealize.ShloMosaic.Lib.ValueIdx

/-!
  StableHLO's scatter: the operand index an update lands at (`ScatterDims.resultIdx?`), read for
  every set of dimension numbers in general form and then for the two layouts in which every
  operand axis is an inserted window axis named by the scatter map: one index component
  (operand of rank 1, indices `[M, 1]`) and two index components (operand of rank 2, indices
  `[M, 2]`). In both the update `j` lands at the operand index whose coordinates are the
  components of row `j` of the indices, read as signed integers, and is dropped when one of them
  is outside the operand.
-/

namespace Cert.LibScatterIndex

open Idealize.ShloMosaic
open Idealize.ShloMosaic.ValueIdx

section General
variable {s si u : Shape} (d : ScatterDims s si u)

/-- On an inserted operand axis the window coordinate is zero: no update axis runs along it. -/
theorem window_inserted (j : u.Idx) (a : Fin s.rank) (ha : a ∈ d.insertedWindowDims) :
    d.window j a = 0 := by
  unfold ScatterDims.window
  rw [dif_neg]
  intro h
  have h2 := (List.mem_filter.1 h).2
  simp only [decide_not, Bool.not_eq_eq_eq_not, Bool.not_true, decide_eq_false_iff_not] at h2
  exact h2 ha

/-- On an operand axis that the scatter map names, the start of the window is the component of
    the start index for that axis, read signed off the scatter indices. -/
theorem start_mapped {w : Nat} (j : u.Idx) (idx : IVec si w) (a : Fin s.rank)
    (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- The update `j` lands at the operand index `i` exactly when, on every operand axis, start plus
    window coordinate is the coordinate of `i` (as integers): the range condition of the result
    index is then the one `i` already satisfies, and when it fails there is no such `i`. -/
theorem resultIdx?_eq_some_iff {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · constructor
    · intro e a
      have e1 := congrArg Fin.val (congrFun (Option.some.inj e) a)
      simp only at e1
      have := h a
      omega
    · intro hi
      refine congrArg some ?_
      funext a
      refine Fin.ext ?_
      show (d.start j idx a + (d.window j a : ℤ)).toNat = (i a).val
      rw [hi a, Int.toNat_natCast]
  · constructor
    · intro e; cases e
    · intro hi
      exfalso
      apply h
      intro a
      rw [hi a]
      exact ⟨Int.natCast_nonneg _, by exact_mod_cast (i a).isLt⟩

end General

section One
variable {N M w : Nat}

/-- The dimension numbers of the one-component layout: no update window axes, the operand's one
    axis inserted and named by the scatter map, the index vector along axis `1` of the indices. -/
abbrev oneDims (N M : Nat) (wf : ScatterDims.WF (⟨1, ![N]⟩ : Shape) ⟨2, ![M, 1]⟩ ⟨1, ![M]⟩ [] [0] [0] 1) :
    ScatterDims ⟨1, ![N]⟩ ⟨2, ![M, 1]⟩ ⟨1, ![M]⟩ :=
  ScatterDims.mk (s := ⟨1, ![N]⟩) (si := ⟨2, ![M, 1]⟩) (u := ⟨1, ![M]⟩) [] [0] [0] 1 wf

/-- One index component: the scatter-indices index at which update `j` reads its only start
    component is row `j`, column `0`. -/
theorem siIdx_one (wf : ScatterDims.WF (⟨1, ![N]⟩ : Shape) ⟨2, ![M, 1]⟩ ⟨1, ![M]⟩ [] [0] [0] 1)
    (j : (⟨1, ![M]⟩ : Shape).Idx) (c : Fin 1) :
    (oneDims N M wf).siIdx j c = ix2 (j 0) 0 := by
  funext b
  refine Fin.ext ?_
  match b with
  | ⟨0, _⟩ => rfl
  | ⟨1, _⟩ => exact congrArg Fin.val (Subsingleton.elim c 0)

/-- One index component: on the operand's axis, start plus window coordinate is entry `(j, 0)`
    of the indices, read signed. -/
theorem start_add_window_one (wf : ScatterDims.WF (⟨1, ![N]⟩ : Shape) ⟨2, ![M, 1]⟩ ⟨1, ![M]⟩ [] [0] [0] 1)
    (j : (⟨1, ![M]⟩ : Shape).Idx) (idx : IVec (⟨2, ![M, 1]⟩ : Shape) w) (a : Fin 1) :
    (oneDims N M wf).start j idx a + ((oneDims N M wf).window j a : ℤ) = (idx (ix2 (j 0) 0)).toInt := by
  have ha : a ∈ ([0] : List (Fin 1)) := List.mem_singleton.mpr (Subsingleton.elim a 0)
  rw [window_inserted (oneDims N M wf) j a ha, start_mapped (oneDims N M wf) j idx a ha, siIdx_one wf j]
  simp

/-- ONE INDEX COMPONENT (an operand `[N]`, scatter indices `[M, 1]`, updates `[M]`, the operand's
    axis inserted and named by the scatter map): update `j` lands at operand index `i` exactly
    when entry `(j, 0)` of the indices, read as a signed integer, is the coordinate of `i`; an
    entry that is negative or at least `N` lands nowhere. -/
theorem resultIdx_one (wf : ScatterDims.WF (⟨1, ![N]⟩ : Shape) ⟨2, ![M, 1]⟩ ⟨1, ![M]⟩ [] [0] [0] 1)
    (j : (⟨1, ![M]⟩ : Shape).Idx) (idx : IVec (⟨2, ![M, 1]⟩ : Shape) w) (i : (⟨1, ![N]⟩ : Shape).Idx) :
    (ScatterDims.mk (s := ⟨1, ![N]⟩) (si := ⟨2, ![M, 1]⟩) (u := ⟨1, ![M]⟩) [] [0] [0] 1 wf).resultIdx? j idx = some i
      ↔ (idx (ix2 (j 0) 0)).toInt = ((i 0).val : ℤ) := by
  rw [resultIdx?_eq_some_iff (oneDims N M wf)]
  constructor
  · intro h
    rw [← start_add_window_one wf j idx 0]
    exact h 0
  · intro h a
    obtain rfl : a = 0 := Subsingleton.elim _ _
    rw [start_add_window_one wf j idx 0]
    exact h

end One

section Two
variable {N0 N1 M w : Nat}

/-- The dimension numbers of the two-component layout: no update window axes, both operand axes
    inserted and named, in order, by the scatter map, the index vector along axis `1` of the
    indices. -/
abbrev twoDims (N0 N1 M : Nat)
    (wf : ScatterDims.WF (⟨2, ![N0, N1]⟩ : Shape) ⟨2, ![M, 2]⟩ ⟨1, ![M]⟩ [] [0, 1] [0, 1] 1) :
    ScatterDims ⟨2, ![N0, N1]⟩ ⟨2, ![M, 2]⟩ ⟨1, ![M]⟩ :=
  ScatterDims.mk (s := ⟨2, ![N0, N1]⟩) (si := ⟨2, ![M, 2]⟩) (u := ⟨1, ![M]⟩) [] [0, 1] [0, 1] 1 wf

/-- Two index components: the scatter-indices index at which update `j` reads component `c` of
    its start index is row `j`, column `c`. -/
theorem siIdx_two (wf : ScatterDims.WF (⟨2, ![N0, N1]⟩ : Shape) ⟨2, ![M, 2]⟩ ⟨1, ![M]⟩ [] [0, 1] [0, 1] 1)
    (j : (⟨1, ![M]⟩ : Shape).Idx) (c : Fin 2) :
    (twoDims N0 N1 M wf).siIdx j c = ix2 (j 0) c := by
  funext b
  refine Fin.ext ?_
  match b with
  | ⟨0, _⟩ => rfl
  | ⟨1, _⟩ => rfl

/-- In the list `[0, 1]` of the two axes, each axis sits at its own position. -/
theorem idxOf_two (a : Fin 2) : List.idxOf a ([0, 1] : List (Fin 2)) = a.val := by
  revert a; decide

/-- Two index components: on operand axis `a`, start plus window coordinate is entry `(j, a)`
    of the indices, read signed. -/
theorem start_add_window_two
    (wf : ScatterDims.WF (⟨2, ![N0, N1]⟩ : Shape) ⟨2, ![M, 2]⟩ ⟨1, ![M]⟩ [] [0, 1] [0, 1] 1)
    (j : (⟨1, ![M]⟩ : Shape).Idx) (idx : IVec (⟨2, ![M, 2]⟩ : Shape) w) (a : Fin 2) :
    (twoDims N0 N1 M wf).start j idx a + ((twoDims N0 N1 M wf).window j a : ℤ)
      = (idx (ix2 (j 0) a)).toInt := by
  have ha : a ∈ ([0, 1] : List (Fin 2)) := by revert a; decide
  rw [window_inserted (twoDims N0 N1 M wf) j a ha, start_mapped (twoDims N0 N1 M wf) j idx a ha,
    siIdx_two wf j]
  have hc : ∀ h, (⟨List.idxOf a ([0, 1] : List (Fin 2)), h⟩ : Fin 2) = a :=
    fun _ => Fin.ext (idxOf_two a)
  rw [hc]
  simp

/-- TWO INDEX COMPONENTS (an operand `[N0, N1]`, scatter indices `[M, 2]`, updates `[M]`, both
    operand axes inserted and named in order by the scatter map): update `j` lands at operand
    index `i` exactly when entries `(j, 0)` and `(j, 1)` of the indices, read as signed integers,
    are the two coordinates of `i`; a row with an entry outside its axis lands nowhere. -/
theorem resultIdx_two
    (wf : ScatterDims.WF (⟨2, ![N0, N1]⟩ : Shape) ⟨2, ![M, 2]⟩ ⟨1, ![M]⟩ [] [0, 1] [0, 1] 1)
    (j : (⟨1, ![M]⟩ : Shape).Idx) (idx : IVec (⟨2, ![M, 2]⟩ : Shape) w) (i : (⟨2, ![N0, N1]⟩ : Shape).Idx) :
    (ScatterDims.mk (s := ⟨2, ![N0, N1]⟩) (si := ⟨2, ![M, 2]⟩) (u := ⟨1, ![M]⟩) [] [0, 1] [0, 1] 1 wf).resultIdx? j idx = some i
      ↔ (idx (ix2 (j 0) 0)).toInt = ((i 0).val : ℤ) ∧ (idx (ix2 (j 0) 1)).toInt = ((i 1).val : ℤ) := by
  rw [resultIdx?_eq_some_iff (twoDims N0 N1 M wf)]
  constructor
  · intro h
    refine ⟨?_, ?_⟩
    · rw [← start_add_window_two wf j idx 0]
      exact h 0
    · rw [← start_add_window_two wf j idx 1]
      exact h 1
  · intro h a
    rw [start_add_window_two wf j idx a]
    match a with
    | ⟨0, _⟩ => exact h.1
    | ⟨1, _⟩ => exact h.2

end Two

end Cert.LibScatterIndex
-- ==== Proof.LibRowGatherScatter.lean ====
import Idealize.ShloMosaic.PureOps.Dims
import Idealize.ShloMosaic.PureOps.ShapeOps
import Idealize.ShloMosaic.Lib.ValueIdx
import proofs.«113278_j87557203296773_2_alg».proof.Proof.LibScatterIndex

/-!
  Rows gathered and rows scattered through one column of integer indices.

  Gathering rows: from an operand `[N, C]` and start indices `[M, 1]`, row `e` of the result `[M, C]` is the
  operand's row at entry `(e, 0)` of the indices, read as a signed integer and clamped into `[0, N − 1]`. The flat
  form takes an operand `[N]` to a result `[M]` the same way. Scattering rows: an update row `j` of `[M, C]`
  can land only on the operand row whose number is entry `(j 0, 0)` of the indices, read as a signed integer.
-/

namespace Cert.LibRowGatherScatter

open Idealize.ShloMosaic
open Idealize.ShloMosaic.ValueIdx

section GatherRows
variable {N C M w : Nat}

/-- The dimension numbers of a gather of whole rows: the result's axis `1` runs along the operand's axis `1`, the
    operand's axis `0` is collapsed and named by the start index map, the index vector lies along axis `1` of the
    indices, and a slice is one full row. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ :=
  GatherDims.mk (s := ⟨2, ![N, C]⟩) (si := ⟨2, ![M, 1]⟩) (t := ⟨2, ![M, C]⟩) [1] [0] [] [] [0] 1 ![1, C] wf

/-- The start-indices index at which result index `(e, q)` reads its only start component is row `e`, column `0`. -/
theorem siIdx_rows (wf : GatherDims.WF ⟨2, ![N, C]⟩ ⟨2, ![M, 1]⟩ ⟨2, ![M, C]⟩ [1] [0] [] [0] [] 1 ![1, C])
    (e : Fin M) (q : Fin C) (c : Fin 1) :
    (rowDims N C M wf).siIdx (ix2 e q) c = ix2 e 0 := by
  funext b
  refine Fin.ext ?_
  match b with
  | ⟨0, _⟩ => rfl
  | ⟨1, _⟩ => exact congrArg Fin.val (Subsingleton.elim c 0)

/-- ROWS GATHERED: entry `(e, q)` of the result is the operand at column `q` of the row whose number is entry
    `(e, 0)` of the indices, read signed and clamped into `[0, N − 1]`. -/
theorem gather_rows (hN : 0 < N)
    (wf : GatherDims.WF ⟨2, ![N, C]⟩ ⟨2, ![M, 1]⟩ ⟨2, ![M, C]⟩ [1] [0] [] [0] [] 1 ![1, C]) {α : Type}
    (x : (⟨2, ![N, C]⟩ : Shape).Idx → α) (idx : IVec ⟨2, ![M, 1]⟩ w) (e : Fin M) (q : Fin C) :
    Host.gather (GatherDims.mk (s := ⟨2, ![N, C]⟩) (si := ⟨2, ![M, 1]⟩) (t := ⟨2, ![M, C]⟩) [1] [0] [] [] [0] 1 ![1, C] wf)
        x idx (ix2 e q)
      = x (ix2 ⟨min (idx (ix2 e 0)).toInt.toNat (N - 1), by omega⟩ q) := by
  unfold Host.gather
  show x ((rowDims N C M wf).operandIdx (ix2 e q) idx) = _
  refine congrArg x (funext fun a => Fin.ext ?_)
  match a with
  | ⟨0, _⟩ =>
    show (rowDims N C M wf).start (ix2 e q) idx 0 + (rowDims N C M wf).batchCoord (ix2 e q) 0
      + (rowDims N C M wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl),
      siIdx_rows wf e q]
    rfl
  | ⟨1, _⟩ =>
    show (rowDims N C M wf).start (ix2 e q) idx 1 + (rowDims N C M wf).batchCoord (ix2 e q) 1
      + (rowDims N C M wf).offCoord (ix2 e q) 1 = q.val
    rw [GatherDims.batchCoord_eq_zero _ _ _ List.not_mem_nil]
    unfold GatherDims.start GatherDims.offCoord
    have h1 : ¬ (1 : Fin 2) ∈ ([0] : List (Fin 2)) := by decide
    rw [dif_neg (show ¬ (1 : Fin 2) ∈ (rowDims N C M wf).startIndexMap from h1),
      dif_pos ((GatherDims.mem_sKept (rowDims N C M wf) 1).mpr ⟨h1, List.not_mem_nil⟩)]
    simp only [Nat.add_zero, Nat.zero_add]
    rfl

end GatherRows

section GatherFlat
variable {N M w : Nat}

/-- The dimension numbers of a gather of single entries of a flat operand: no offset axes, the operand's one axis
    collapsed and named by the start index map, the index vector along axis `1` of the indices. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ :=
  GatherDims.mk (s := ⟨1, ![N]⟩) (si := ⟨2, ![M, 1]⟩) (t := ⟨1, ![M]⟩) [] [0] [] [] [0] 1 ![1] wf

/-- The start-indices index at which result index `e` reads its only start component is row `e`, column `0`. -/
theorem siIdx_flat (wf : GatherDims.WF ⟨1, ![N]⟩ ⟨2, ![M, 1]⟩ ⟨1, ![M]⟩ [] [0] [] [0] [] 1 ![1])
    (e : Fin M) (c : Fin 1) :
    (flatDims N M wf).siIdx (ix1 e) c = ix2 e 0 := by
  funext b
  refine Fin.ext ?_
  match b with
  | ⟨0, _⟩ => rfl
  | ⟨1, _⟩ => exact congrArg Fin.val (Subsingleton.elim c 0)

/-- ENTRIES GATHERED: entry `e` of the result is the operand at entry `(e, 0)` of the indices, read signed and
    clamped into `[0, N − 1]`. -/
theorem gather_flat (hN : 0 < N) (wf : GatherDims.WF ⟨1, ![N]⟩ ⟨2, ![M, 1]⟩ ⟨1, ![M]⟩ [] [0] [] [0] [] 1 ![1])
    {α : Type} (x : (⟨1, ![N]⟩ : Shape).Idx → α) (idx : IVec ⟨2, ![M, 1]⟩ w) (e : Fin M) :
    Host.gather (GatherDims.mk (s := ⟨1, ![N]⟩) (si := ⟨2, ![M, 1]⟩) (t := ⟨1, ![M]⟩) [] [0] [] [] [0] 1 ![1] wf)
        x idx (ix1 e)
      = x (ix1 ⟨min (idx (ix2 e 0)).toInt.toNat (N - 1), by omega⟩) := by
  unfold Host.gather
  show x ((flatDims N M wf).operandIdx (ix1 e) idx) = _
  refine congrArg x (funext fun a => Fin.ext ?_)
  obtain rfl : a = 0 := Subsingleton.elim _ _
  show (flatDims N M wf).start (ix1 e) idx 0 + (flatDims N M wf).batchCoord (ix1 e) 0
    + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl),
    siIdx_flat wf e]
  rfl

end GatherFlat

section ScatterRows
variable {N C M w : Nat}

/-- The dimension numbers of a scatter of whole rows: the updates' axis `1` runs along the operand's axis `1`, the
    operand's axis `0` is inserted and named by the scatter map, the index vector along axis `1` of the indices. -/
abbrev scatterRowDims (N C M : Nat)
    (wf : ScatterDims.WF (⟨2, ![N, C]⟩ : Shape) ⟨2, ![M, 1]⟩ ⟨2, ![M, C]⟩ [1] [0] [0] 1) :
    ScatterDims ⟨2, ![N, C]⟩ ⟨2, ![M, 1]⟩ ⟨2, ![M, C]⟩ :=
  ScatterDims.mk (s := ⟨2, ![N, C]⟩) (si := ⟨2, ![M, 1]⟩) (u := ⟨2, ![M, C]⟩) [1] [0] [0] 1 wf

/-- The scatter-indices index at which update index `j` reads its only start component is row `j 0`, column `0`. -/
theorem siIdx_scatterRows (wf : ScatterDims.WF (⟨2, ![N, C]⟩ : Shape) ⟨2, ![M, 1]⟩ ⟨2, ![M, C]⟩ [1] [0] [0] 1)
    (j : (⟨2, ![M, C]⟩ : Shape).Idx) (c : Fin 1) :
    (scatterRowDims N C M wf).siIdx j c = ix2 (j 0) 0 := by
  funext b
  refine Fin.ext ?_
  match b with
  | ⟨0, _⟩ => rfl
  | ⟨1, _⟩ => exact congrArg Fin.val (Subsingleton.elim c 0)

/-- ROWS SCATTERED, WHERE AN UPDATE LANDS: if update index `j` lands at operand index `i`, then the row of `i` is
    entry `(j 0, 0)` of the indices, read as a signed integer. -/
theorem scatter_rows_landing (wf : ScatterDims.WF (⟨2, ![N, C]⟩ : Shape) ⟨2, ![M, 1]⟩ ⟨2, ![M, C]⟩ [1] [0] [0] 1)
    (idx : IVec (⟨2, ![M, 1]⟩ : Shape) w) (j : (⟨2, ![M, C]⟩ : Shape).Idx) (i : (⟨2, ![N, C]⟩ : Shape).Idx)
    (h : (ScatterDims.mk (s := ⟨2, ![N, C]⟩) (si := ⟨2, ![M, 1]⟩) (u := ⟨2, ![M, C]⟩) [1] [0] [0] 1 wf).resultIdx? j idx
      = some i) :
    (idx (ix2 (j 0) 0)).toInt = ((i 0).val : ℤ) := by
  have h0 := (Cert.LibScatterIndex.resultIdx?_eq_some_iff (scatterRowDims N C M wf) j idx i).mp h 0
  have ha : (0 : Fin 2) ∈ ([0] : List (Fin 2)) := List.mem_singleton.mpr rfl
  rw [Cert.LibScatterIndex.window_inserted (scatterRowDims N C M wf) j 0 ha,
    Cert.LibScatterIndex.start_mapped (scatterRowDims N C M wf) j idx 0 ha, siIdx_scatterRows wf j] at h0
  simpa using h0

end ScatterRows

end Cert.LibRowGatherScatter
-- ==== Proof.AggBridge.lean ====
/-
  The neighbourhood aggregation of a graph convolution, scaled at the destination.

  With `D` the per-node scale (finite and non-negative), `H` a node-feature array, `Is` the source rows, `Id` the
  destination rows and `Idw` the destination rows as a gather reads them (wrapped, then clamped): accumulating
  `H[s e] · D[s e]` into row `Id e` and scaling row `r` by `D r` afterwards gives, entry by entry, what accumulating
  `H[s e] · (D[s e] · D[Idw e])` gives — because an update that lands in row `r` has `Idw e = r`, and a finite
  non-negative scale distributes over the sum of the updates that land there.
-/
import Idealize.ShloMosaic.PureOps.Ideal
import Idealize.ShloMosaic.Lib.ValueIdx
import proofs.«113278_j87557203296773_2_alg».proof.Proof.AggAlgebra
import proofs.«113278_j87557203296773_2_alg».proof.Proof.LibScatterAddSum
import proofs.«113278_j87557203296773_2_alg».proof.Proof.LibRowGatherScatter

noncomputable section

open scoped BigOperators

namespace Cert.AggBridge

open Idealize.ShloMosaic Idealize.ShloMosaic.ValueIdx

/-- The rows' scatter: updates `[M, C]` into an operand `[N, C]`, row `e` of the updates landing in the row that
    entry `(e, 0)` of the indices names. -/
abbrev rowScatter (wf : ScatterDims.WF (⟨2, ![50000, 128]⟩ : Shape) ⟨2, ![1650000, 1]⟩ ⟨2, ![1650000, 128]⟩ [1] [0] [0] 1) :
    ScatterDims ⟨2, ![50000, 128]⟩ ⟨2, ![1650000, 1]⟩ ⟨2, ![1650000, 128]⟩ :=
  ScatterDims.mk (s := ⟨2, ![50000, 128]⟩) (si := ⟨2, ![1650000, 1]⟩) (u := ⟨2, ![1650000, 128]⟩) [1] [0] [0] 1 wf

/-- The rows' gather: row `e` of the result is the operand's row named by entry `(e, 0)` of the indices, clamped. -/
abbrev rowGather (wf : GatherDims.WF ⟨2, ![50000, 128]⟩ ⟨2, ![1650000, 1]⟩ ⟨2, ![1650000, 128]⟩ [1] [0] [] [0] [] 1 ![1, 128]) :
    GatherDims ⟨2, ![50000, 128]⟩ ⟨2, ![1650000, 1]⟩ ⟨2, ![1650000, 128]⟩ :=
  GatherDims.mk (s := ⟨2, ![50000, 128]⟩) (si := ⟨2, ![1650000, 1]⟩) (t := ⟨2, ![1650000, 128]⟩) [1] [0] [] [] [0] 1 ![1, 128] wf

/-- The same gather of a flat array. -/
abbrev flatGather (wf : GatherDims.WF ⟨1, ![50000]⟩ ⟨2, ![1650000, 1]⟩ ⟨1, ![1650000]⟩ [] [0] [] [0] [] 1 ![1]) :
    GatherDims ⟨1, ![50000]⟩ ⟨2, ![1650000, 1]⟩ ⟨1, ![1650000]⟩ :=
  GatherDims.mk (s := ⟨1, ![50000]⟩) (si := ⟨2, ![1650000, 1]⟩) (t := ⟨1, ![1650000]⟩) [] [0] [] [] [0] 1 ![1] wf

theorem agg_bridge
    (wfs : ScatterDims.WF (⟨2, ![50000, 128]⟩ : Shape) ⟨2, ![1650000, 1]⟩ ⟨2, ![1650000, 128]⟩ [1] [0] [0] 1)
    (wfg : GatherDims.WF ⟨2, ![50000, 128]⟩ ⟨2, ![1650000, 1]⟩ ⟨2, ![1650000, 128]⟩ [1] [0] [] [0] [] 1 ![1, 128])
    (wff : GatherDims.WF ⟨1, ![50000]⟩ ⟨2, ![1650000, 1]⟩ ⟨1, ![1650000]⟩ [] [0] [] [0] [] 1 ![1])
    (H : (⟨2, ![50000, 128]⟩ : Shape).Idx → EReal) (D : (⟨1, ![50000]⟩ : Shape).Idx → EReal)
    (hD0 : ∀ r, 0 ≤ D r) (hDt : ∀ r, D r ≠ ⊤)
    (Is Id Idw : IVec ⟨2, ![1650000, 1]⟩ 32)
    (hw : ∀ (e : Fin 1650000) (r : Fin 50000), (Id (ix2 e 0)).toInt = (r.val : ℤ) →
      min (Idw (ix2 e 0)).toInt.toNat (50000 - 1) = r.val)
    (Z : (⟨2, ![50000, 128]⟩ : Shape).Idx → EReal) (hZ : ∀ i, Z i = 0)
    (U U' : (⟨2, ![1650000, 128]⟩ : Shape).Idx → EReal)
    (hU : ∀ (e : Fin 1650000) (q : Fin 128), U (ix2 e q)
      = Host.gather (rowGather wfg) (fun p => H p * D (ix1 (p 0))) Is (ix2 e q))
    (hU' : ∀ (e : Fin 1650000) (q : Fin 128), U' (ix2 e q)
      = Host.gather (rowGather wfg) H Is (ix2 e q)
        * (Host.gather (flatGather wff) D Is (ix1 e) * Host.gather (flatGather wff) D Idw (ix1 e)))
    (r : Fin 50000) (q : Fin 128) :
    D (ix1 r) * Ideal.hostScatterAdd (rowScatter wfs) Z Id U (ix2 r q)
      = Ideal.hostScatterAdd (rowScatter wfs) Z Id U' (ix2 r q) := by
  classical
  rw [Cert.LibScatterAddSum.hostScatterAdd_apply, Cert.LibScatterAddSum.hostScatterAdd_apply, hZ]
  let k : (⟨2, ![1650000, 128]⟩ : Shape).Idx → Fin 50000 :=
    fun j => ⟨min (Is (ix2 (j 0) 0)).toInt.toNat (50000 - 1), by omega⟩
  let kw : (⟨2, ![1650000, 128]⟩ : Shape).Idx → Fin 50000 :=
    fun j => ⟨min (Idw (ix2 (j 0) 0)).toInt.toNat (50000 - 1), by omega⟩
  have e1 : ∀ j : (⟨2, ![1650000, 128]⟩ : Shape).Idx, U j = H (ix2 (k j) (j 1)) * D (ix1 (k j)) := by
    intro j
    obtain ⟨e, q', rfl⟩ : ∃ (e : Fin 1650000) (q' : Fin 128), j = ix2 e q' := ⟨j 0, j 1, eq_ix2 j⟩
    rw [hU, Cert.LibRowGatherScatter.gather_rows (by norm_num) wfg]
  have e2 : ∀ j : (⟨2, ![1650000, 128]⟩ : Shape).Idx, U' j = H (ix2 (k j) (j 1)) * (D (ix1 (k j)) * D (ix1 (kw j))) := by
    intro j
    obtain ⟨e, q', rfl⟩ : ∃ (e : Fin 1650000) (q' : Fin 128), j = ix2 e q' := ⟨j 0, j 1, eq_ix2 j⟩
    rw [hU', Cert.LibRowGatherScatter.gather_rows (by norm_num) wfg, Cert.LibRowGatherScatter.gather_flat (by norm_num) wff,
      Cert.LibRowGatherScatter.gather_flat (by norm_num) wff]
  simp only [e1, e2]
  refine Cert.AggAlgebra.scale_after_sum _ _ _ _ (D (ix1 r)) (hD0 _) (hDt _) (fun j hj => ?_)
  have hl := Cert.LibRowGatherScatter.scatter_rows_landing wfs Id j (ix2 r q) (Finset.mem_filter.mp hj).2
  have hv : (kw j).val = r.val := hw (j 0) r hl
  exact congrArg (fun x => D (ix1 x)) (Fin.ext hv)

end Cert.AggBridge

end
-- ==== Proof.Bridge.lean ====
/-
  The kernel program's result term is the reference's, index by index.

  Write `d` for the per-node scale (finite, non-negative), `h₁ = x · W₁`, and for an array `h` of node features
  `A(h)` for the accumulation over the edges of the gathered rows. The kernel program forms `d r · A(h₁ ⊙ d)` and the
  reference `A'(h₁)`, the accumulation of `h₁[s e] · (d[s e] · d[t e])`: equal entry by entry, because an edge that
  lands in row `r` has `t e = r` and the finite non-negative `d r` distributes over the sum. With equal
  pre-activations the two first layers agree, hence the second layers by the same law, hence the classifiers.
-/
import proofs.«113278_j87557203296773_2_alg».proof.Proof.KAgg
import proofs.«113278_j87557203296773_2_alg».proof.Proof.KIds
import proofs.«113278_j87557203296773_2_alg».proof.Proof.RefStages
import proofs.«113278_j87557203296773_2_alg».proof.Proof.RefStages2
import proofs.«113278_j87557203296773_2_alg».proof.Proof.AggBridge

set_option maxRecDepth 16384

noncomputable section

namespace Cert.Bridge

open Cert.KernelIdeal Cert.KernelIdeal.Gen Cert.KGlue Cert.KValue Cert.KIds
open Idealize.ShloMosaic Idealize.ShloMosaic.TcCoe Idealize.SL.Sem Idealize.ShloMosaic.ValueIdx
open Cert.ReferenceIdeal.ReadP

variable (m : (ℓ : Loc nD τ sig) → Buf (Elt Ideal) ℓ) (ρ : Dev nD → PrngReg) (c : Dev nD)

/-- The zero array both accumulations start from. -/
theorem zeros_at (i : Cert.ReferenceIdeal.S50000x128.Idx) : val_main_v43 (F := Ideal) i = 0 := by
  rw [val_main_v43_apply, val_main_cst_9_apply]
  exact Ideal.ofBits_zero_f32

/-! ## Both accumulations in one vocabulary

The two programs print the same accumulation over the same index arrays; spelt over the reference's names: -/

/-- The kernel program's aggregate of `G`: the accumulation, at the destination rows, of the gathered rows of `G`. -/
theorem kagg_form (x1 : (⟨Cert.ReferenceIdeal.S2x1600000, .i32⟩ : BufTy).Contents (Elt Ideal)) (G : FVec Ideal S50000x128 .bf16) :
    aggOf (F := Ideal) (val_main_v3 (F := Ideal) x1) (val_main_v6 (F := Ideal) x1) G
      = Ideal.hostScatterAdd (Cert.AggBridge.rowScatter scatter_S50000x128_S1650000x1_S1650000x128_1_0_0_1.wf)
          (val_main_v43 (F := Ideal)) (val_main_v44 (F := Ideal) x1)
          (Host.gather (Cert.AggBridge.rowGather gather_S50000x128_S1650000x1_S1650000x128_1_0_n_n_0_1_1128.wf) G
            (val_main_v38 (F := Ideal) x1)) := rfl

/-- The reference's first aggregate. -/
theorem ragg1_form (x0) (x1) (x2) : val_main_v45 (F := Ideal) x0 x1 x2
      = Ideal.hostScatterAdd (Cert.AggBridge.rowScatter scatter_S50000x128_S1650000x1_S1650000x128_1_0_0_1.wf)
          (val_main_v43 (F := Ideal)) (val_main_v44 (F := Ideal) x1) (val_main_v42 (F := Ideal) x0 x1 x2) := rfl

/-- The reference's second aggregate. -/
theorem ragg2_form (x0) (x1) (x2) (x3) (x4) : val_main_v63 (F := Ideal) x0 x1 x2 x3 x4
      = Ideal.hostScatterAdd (Cert.AggBridge.rowScatter scatter_S50000x128_S1650000x1_S1650000x128_1_0_0_1.wf)
          (val_main_v43 (F := Ideal)) (val_main_v44 (F := Ideal) x1) (val_main_v60 (F := Ideal) x0 x1 x2 x3 x4) := rfl

/-- The reference's gathered rows, first and second layer, and its two gathered scales. -/
theorem rgather1_form (x0) (x1) (x2) : val_main_v39 (F := Ideal) x0 x1 x2
    = Host.gather (Cert.AggBridge.rowGather gather_S50000x128_S1650000x1_S1650000x128_1_0_n_n_0_1_1128.wf)
        (val_main_v32 (F := Ideal) x0 x2) (val_main_v38 (F := Ideal) x1) := rfl
theorem rgather2_form (x0) (x1) (x2) (x3) (x4) : val_main_v57 (F := Ideal) x0 x1 x2 x3 x4
    = Host.gather (Cert.AggBridge.rowGather gather_S50000x128_S1650000x1_S1650000x128_1_0_n_n_0_1_1128.wf)
        (val_main_v50 (F := Ideal) x0 x1 x2 x3 x4) (val_main_v38 (F := Ideal) x1) := rfl
theorem rscale_src_form (x1) : val_main_v23 (F := Ideal) x1
    = Host.gather (Cert.AggBridge.flatGather Cert.ReferenceIdeal.gather_S50000_S1650000x1_S1650000_n_0_n_n_0_1_1.wf)
        (val_main_v16 (F := Ideal) x1) (val_main_v38 (F := Ideal) x1) := rfl
theorem rscale_dst_form (x1) : val_main_v30 (F := Ideal) x1
    = Host.gather (Cert.AggBridge.flatGather Cert.ReferenceIdeal.gather_S50000_S1650000x1_S1650000_n_0_n_n_0_1_1.wf)
        (val_main_v16 (F := Ideal) x1) (val_main_v29 (F := Ideal) x1) := rfl

/-- The scaled first layer is `h₁ ⊙ d` with the reference's `h₁` and `d`. -/
theorem scaledLin_eq : Cert.Spec.scaledLin (m ((c : Thread nD τ).loc main_arg0)) (m ((c : Thread nD τ).loc main_arg2)) (dcol m ρ c)
    = fun p => val_main_v32 (F := Ideal) (m ((c : Thread nD τ).loc main_arg0)) (m ((c : Thread nD τ).loc main_arg2)) p * val_main_v16 (F := Ideal) (m ((c : Thread nD τ).loc main_arg1)) (ix1 (p 0)) := by
  funext p
  obtain ⟨r, q, rfl⟩ : ∃ (r : Fin 50000) (q : Fin 128), p = ix2 r q := ⟨p 0, p 1, eq_ix2 p⟩
  rw [Cert.Spec.scaledLin_apply, ← Cert.RefStages.ref_h1, dcol_at]

/-- First aggregate: the destination's scale after the sum is the reference's scale inside it. -/
theorem agg1_bridge (r : Fin 50000) (q : Fin 128) :
    dcol m ρ c (ix2 r 0) * agg1v m ρ c (ix2 r q) = val_main_v45 (F := Ideal) (m ((c : Thread nD τ).loc main_arg0)) (m ((c : Thread nD τ).loc main_arg1)) (m ((c : Thread nD τ).loc main_arg2)) (ix2 r q) := by
  rw [dcol_at]
  unfold agg1v
  rw [src_eq, dst_eq, scaledLin_eq, kagg_form, ragg1_form]
  exact Cert.AggBridge.agg_bridge _ _ Cert.ReferenceIdeal.gather_S50000_S1650000x1_S1650000_n_0_n_n_0_1_1.wf
    (val_main_v32 (F := Ideal) (m ((c : Thread nD τ).loc main_arg0)) (m ((c : Thread nD τ).loc main_arg2))) (val_main_v16 (F := Ideal) (m ((c : Thread nD τ).loc main_arg1)))
    (fun i => (Cert.RefStages2.dinv_bounds (m ((c : Thread nD τ).loc main_arg1)) i).1) (fun i => (Cert.RefStages2.dinv_bounds (m ((c : Thread nD τ).loc main_arg1)) i).2)
    (val_main_v38 (F := Ideal) (m ((c : Thread nD τ).loc main_arg1))) (val_main_v44 (F := Ideal) (m ((c : Thread nD τ).loc main_arg1))) (val_main_v29 (F := Ideal) (m ((c : Thread nD τ).loc main_arg1)))
    (Cert.RefStages2.wrap_at (m ((c : Thread nD τ).loc main_arg1)))
    (val_main_v43 (F := Ideal)) zeros_at
    _ (val_main_v42 (F := Ideal) (m ((c : Thread nD τ).loc main_arg0)) (m ((c : Thread nD τ).loc main_arg1)) (m ((c : Thread nD τ).loc main_arg2)))
    (fun e q => rfl)
    (fun e q => by rw [Cert.RefStages2.upd1_at, rgather1_form, rscale_src_form, rscale_dst_form])
    r q

/-- The first layer's activations agree. -/
theorem act1_eq : Cert.Spec.act (agg1v m ρ c) (dcol m ρ c) (b1row m ρ c) = val_main_v49 (F := Ideal) (m ((c : Thread nD τ).loc main_arg0)) (m ((c : Thread nD τ).loc main_arg1)) (m ((c : Thread nD τ).loc main_arg2)) (m ((c : Thread nD τ).loc main_arg3)) := by
  funext p
  obtain ⟨r, k, rfl⟩ : ∃ (r : Fin 50000) (k : Fin 128), p = ix2 r k := ⟨p 0, p 1, eq_ix2 p⟩
  rw [Cert.Spec.act_apply, agg1_bridge, b1row_at, Cert.RefStages.ref_a1]

/-- The scaled hidden layer is `h₂ ⊙ d` with the reference's `h₂` and `d`. -/
theorem scaledHidden_eq : Cert.Spec.scaledHidden (agg1v m ρ c) (dcol m ρ c) (b1row m ρ c) (m ((c : Thread nD τ).loc main_arg4))
    = fun p => val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) p * val_main_v16 (F := Ideal) (m ((c : Thread nD τ).loc main_arg1)) (ix1 (p 0)) := by
  funext p
  obtain ⟨r, q, rfl⟩ : ∃ (r : Fin 50000) (q : Fin 128), p = ix2 r q := ⟨p 0, p 1, eq_ix2 p⟩
  rw [Cert.Spec.scaledHidden_apply, act1_eq, ← Cert.RefStages.ref_h2, dcol_at]

/-- Second aggregate: the same law one layer up. -/
theorem agg2_bridge (r : Fin 50000) (q : Fin 128) :
    dcol m ρ c (ix2 r 0) * agg2v m ρ c (ix2 r q) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  rw [dcol_at]
  unfold agg2v
  rw [src_eq, dst_eq, scaledHidden_eq, kagg_form, ragg2_form]
  exact Cert.AggBridge.agg_bridge _ _ Cert.ReferenceIdeal.gather_S50000_S1650000x1_S1650000_n_0_n_n_0_1_1.wf
    (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v16 (F := Ideal) (m ((c : Thread nD τ).loc main_arg1)))
    (fun i => (Cert.RefStages2.dinv_bounds (m ((c : Thread nD τ).loc main_arg1)) i).1) (fun i => (Cert.RefStages2.dinv_bounds (m ((c : Thread nD τ).loc main_arg1)) i).2)
    (val_main_v38 (F := Ideal) (m ((c : Thread nD τ).loc main_arg1))) (val_main_v44 (F := Ideal) (m ((c : Thread nD τ).loc main_arg1))) (val_main_v29 (F := Ideal) (m ((c : Thread nD τ).loc main_arg1)))
    (Cert.RefStages2.wrap_at (m ((c : Thread nD τ).loc main_arg1)))
    (val_main_v43 (F := Ideal)) zeros_at
    _ (val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (fun e q => rfl)
    (fun e q => by rw [Cert.RefStages2.upd2_at, rgather2_form, rscale_src_form, rscale_dst_form])
    r q

/-- The second layer's activations agree. -/
theorem act2_eq : Cert.Spec.act (agg2v m ρ c) (dcol m ρ c) (b2row m ρ c) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext p
  obtain ⟨r, k, rfl⟩ : ∃ (r : Fin 50000) (k : Fin 128), p = ix2 r k := ⟨p 0, p 1, eq_ix2 p⟩
  rw [Cert.Spec.act_apply, agg2_bridge, b2row_at, Cert.RefStages.ref_a2]

/-- The classifiers agree: the kernel program's result term is the reference's. -/
theorem logits_eq : Cert.Spec.logits (agg2v m ρ c) (dcol m ρ c) (b2row m ρ c) (m ((c : Thread nD τ).loc main_arg6)) (bfrow m ρ c)
    = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext p
  obtain ⟨r, q, rfl⟩ : ∃ (r : Fin 50000) (q : Fin 32), p = ix2 r q := ⟨p 0, p 1, eq_ix2 p⟩
  rw [Cert.Spec.logits_apply, act2_eq, bfrow_at, Cert.RefStages.ref_out]

end Cert.Bridge

end
-- ==== Proof.lean ====
/-
  A two-layer graph convolution with a dense classifier: the kernel program against its jnp reference, over the
  extended reals.

  Both programs build the same edge lists (every edge, then one self-loop per node), the same in-degree by an
  accumulating scatter, and the same per-node scale `d = 1/√deg` (guarded: `0` where the degree is not positive).
  The reference multiplies every gathered row `h[s e]` by `d[s e] · d[t e]` before accumulating it into row `t e`.
  The kernel program folds that weight into its dense stages: it scales row `j` of `h` by `d j` before the gather and
  row `r` of the accumulated array by `d r` afterwards. The two agree entry by entry because an edge accumulated into
  row `r` has `t e = r`, and because `d r` is FINITE AND NON-NEGATIVE, so that it distributes over the sum of the
  rows accumulated there — on the extended reals that needs no finiteness of the features themselves, so the
  precondition is never opened. Format changes are the identity and a matrix product into a zero accumulator is a
  plain sum, so the three dense stages read as the same sums on both sides.

  The three frames are the generated ones (the reference's is its run with the result dropped); the idealization
  rewrote nothing, so `preserves` is `True`.
-/
import proofs.«113278_j87557203296773_2_alg».proof.Defs
import proofs.«113278_j87557203296773_2_alg».proof.Proof.Gen.Kernel
import proofs.«113278_j87557203296773_2_alg».proof.Proof.Gen.Kernel.Frame
import proofs.«113278_j87557203296773_2_alg».proof.Proof.Gen.KernelIdeal
import proofs.«113278_j87557203296773_2_alg».proof.Proof.Gen.KernelIdeal.Frame
import proofs.«113278_j87557203296773_2_alg».proof.Proof.Gen.ReferenceIdeal
import proofs.«113278_j87557203296773_2_alg».proof.Proof.Gen.Pre_finite_inputs
import proofs.«113278_j87557203296773_2_alg».proof.Proof.RefRunP
import proofs.«113278_j87557203296773_2_alg».proof.Proof.RefReadP
import proofs.«113278_j87557203296773_2_alg».proof.Proof.KRun
import proofs.«113278_j87557203296773_2_alg».proof.Proof.KValue
import proofs.«113278_j87557203296773_2_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result array: the kernel program's
    result term, read region by region, is the reference's composed term of the same arguments. -/
theorem algebraic : Cert.algebraic_KernelIdeal_ReferenceIdeal := by
  intro m ρ m' ρ' _ hagree
  refine ⟨fun c => Cert.KernelIdeal.Gen.W8 m ρ c (Proc.devRef .tc Cert.KernelIdeal.main_v45), Cert.KRun.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v71_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact ((Cert.KValue.kernel_value m ρ c).trans (Cert.Bridge.logits_eq m ρ c)).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
